-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S1x4096 : Shape := ⟨2, ![1, 4096]⟩
abbrev S4096x22016 : Shape := ⟨2, ![4096, 22016]⟩
abbrev S11008x4096 : Shape := ⟨2, ![11008, 4096]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bitsLt_bf16_f32 : FTy.bits .bf16 < FTy.bits .f32
  bcast_S_S4096x22016 : S_.BroadcastsInDim S4096x22016 (![] : Fin 0 → Fin S4096x22016.rank)
  reducesTo_S4096x22016_S_d0_1 : S4096x22016.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg4 : FVec F S1x4096 .f32) (main_v14 : IVec S_ 1) (main_v16 : FVec F S11008x4096 .f32) (main_cst_4 : FVec F S_ .f32) : IVec S_ 1 :=
  let main_v17 : FVec F S11008x4096 .f32 := broadcastInDim S11008x4096 ![] bcast_S_S11008x4096 main_cst_4
  let main_v18 : IVec S11008x4096 1 := cmpf .olt main_v16 main_v17
  let main_c_5 : IVec S_ 1 := constantI S_ 1 1#1
  let main_v19 : IVec S_ 1 := (fun x v => Host.reduce IntOp.andi x v reducesTo_S11008x4096_S_d0_1 h_S_) main_v18 main_c_5
  let main_v20 : IVec S_ 1 := andi main_v14 main_v19
  let main_v21 : FVec F S1x4096 .f32 := Host.absf main_arg4
  let main_cst_6 : FVec F S_ .f32 := constant S_ .f32 0x7F800000#32
  let main_v22 : FVec F S1x4096 .f32 := broadcastInDim S1x4096 ![] bcast_S_S1x4096 main_cst_6
  let main_v23 : IVec S1x4096 1 := cmpf .olt main_v21 main_v22
  let main_c_7 : IVec S_ 1 := constantI S_ 1 1#1
  let main_v24 : IVec S_ 1 := (fun x v => Host.reduce IntOp.andi x v reducesTo_S1x4096_S_d0_1 h_S_) main_v23 main_c_7
  let main_v25 : IVec S_ 1 := andi main_v20 main_v24
  main_v25

def fn {F : FTy → Type} [FloatOps F] (main_arg0 : FVec F S4x512x4096 .f32) (main_arg1 : FVec F S1x4096 .f32) (main_arg2 : FVec F S4096x22016 .bf16) (main_arg3 : FVec F S11008x4096 .bf16) (main_arg4 : FVec F S1x4096 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S4096x22016 .f32 := (extf .f32 · bitsLt_bf16_f32) main_arg2
  let main_v10 : FVec F S4096x22016 .f32 := Host.absf main_v9
  let main_cst_2 : FVec F S_ .f32 := constant S_ .f32 0x7F800000#32
  let main_v11 : FVec F S4096x22016 .f32 := broadcastInDim S4096x22016 ![] bcast_S_S4096x22016 main_cst_2
  let main_v12 : IVec S4096x22016 1 := cmpf .olt main_v10 main_v11
  let main_c_3 : IVec S_ 1 := constantI S_ 1 1#1
  let main_v13 : IVec S_ 1 := (fun x v => Host.reduce IntOp.andi x v reducesTo_S4096x22016_S_d0_1 h_S_) main_v12 main_c_3
  let main_v14 : IVec S_ 1 := andi main_v8 main_v13
  let main_v15 : FVec F S11008x4096 .f32 := (extf .f32 · bitsLt_bf16_f32) main_arg3
  let main_v16 : FVec F S11008x4096 .f32 := Host.absf main_v15
  let main_cst_4 : FVec F S_ .f32 := constant S_ .f32 0x7F800000#32
  fn_part1 (F := F) main_arg4 main_v14 main_v16 main_cst_4
-- ==== Kernel.lean ====
abbrev S4x512x4096 : Shape := ⟨3, ![4, 512, 4096]⟩
abbrev S1x4096 : Shape := ⟨2, ![1, 4096]⟩
abbrev S4096x22016 : Shape := ⟨2, ![4096, 22016]⟩
abbrev S11008x4096 : Shape := ⟨2, ![11008, 4096]⟩
abbrev S2048x4096 : Shape := ⟨2, ![2048, 4096]⟩
abbrev S512x4096 : Shape := ⟨2, ![512, 4096]⟩
abbrev S4096x512 : Shape := ⟨2, ![4096, 512]⟩
abbrev S256x4096 : Shape := ⟨2, ![256, 4096]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4x512x4096, .f32⟩
  | .hbm, ⟨1, _⟩ => ⟨S1x4096, .f32⟩
  | .hbm, ⟨2, _⟩ => ⟨S4096x22016, .bf16⟩
  | .hbm, ⟨3, _⟩ => ⟨S11008x4096, .bf16⟩
  | .hbm, ⟨4, _⟩ => ⟨S1x4096, .f32⟩
  | .hbm, ⟨5, _⟩ => ⟨S2048x4096, .f32⟩
  | .hbm, ⟨6, _⟩ => ⟨S2048x4096, .f32⟩
  | .hbm, ⟨7, _⟩ => ⟨S4x512x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x256, .bf16⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 44], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond4 (i : grid0.Coords) : BitVec 1 :=
  let arg1 : BitVec 32 := BitVec.ofNat 32 (i 1).val
  let c43_i32_4 : BitVec 32 := 43#32
  let v9 : BitVec 1 := Scalar.cmpi .eq arg1 c43_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x512x4096_S2048x4096 : S4x512x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  broadcasts_S1x4096_S512x4096 : S1x4096.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x256_S512x256_0_0 : ∀ a, (![0, 0] : Fin 2 → Nat) a + S512x256.size a ≤ S512x256.size a
  h_S512x256 : 0 < S512x256.numel
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  slices_S512x512_o0_0_S512x256 : S512x512.Slices ![0, 0] S512x256
  slices_S512x512_o0_256_S512x256 : S512x512.Slices ![0, 256] S512x256
  shapeCasts_S512x256_S512x256 : S512x256.ShapeCasts S512x256
  packedbf16_S512x256_S512x256_0_0 : (Rect.unit (s := S512x256) ![0, 0] S512x256.size inb_S512x256_S512x256_0_0).PackedRows (EltTy.packing .bf16)
  shapeCasts_S2048x4096_S4x512x4096 : S2048x4096.ShapeCasts S4x512x4096
  dot_S512x256_S256x4096_S512x4096_1_0_0_1_n_n_wf : DotDims.WF S512x256 S256x4096 S512x4096 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x22016.size a
  hwx0_2 : ∀ i : grid0.Coords, EltTy.bits .bf16 = 32 ∨ (Rect.block (s := S4096x22016) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S2048x4096.size a
  hwx0_5 : ∀ i : grid0.Coords, EltTy.bits .f32 = 32 ∨ (Rect.block (s := S2048x4096) S512x4096.size (cc0_transform_5 i) (hinb0_5 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond4 i == 1#1) | ⟨_ + 6, h⟩ => absurd h (Nat.not_lt.2 (Nat.le_add_left _ _))

class Facts : Prop extends Facts₀ where

variable [Facts]
-- ==== ReferenceIdeal.lean ====
abbrev S4x512x4096 : Shape := ⟨3, ![4, 512, 4096]⟩
abbrev S1x4096 : Shape := ⟨2, ![1, 4096]⟩
abbrev S4096x22016 : Shape := ⟨2, ![4096, 22016]⟩
abbrev S11008x4096 : Shape := ⟨2, ![11008, 4096]⟩
abbrev S2048x4096 : Shape := ⟨2, ![2048, 4096]⟩
abbrev S_ : Shape := ⟨0, ![]⟩
abbrev S2304x4096 : Shape := ⟨2, ![2304, 4096]⟩
abbrev S384x4096 : Shape := ⟨2, ![384, 4096]⟩
abbrev S4096x512 : Shape := ⟨2, ![4096, 512]⟩
abbrev S256x4096 : Shape := ⟨2, ![256, 4096]⟩
abbrev S384 : Shape := ⟨1, ![384]⟩
abbrev S384x1 : Shape := ⟨2, ![384, 1]⟩
abbrev S384x512 : Shape := ⟨2, ![384, 512]⟩
abbrev S384x256 : Shape := ⟨2, ![384, 256]⟩

abbrev nBuf : Space → Nat
  | .hbm => 12
  | .vmem => 12
  | .smem => 0
  | _ => 0

abbrev bufTy : (tb : Table) → Fin (tcTables nBuf tb) → BufTy
  | .hbm, ⟨0, _⟩ => ⟨S4x512x4096, .f32⟩
  | .hbm, ⟨1, _⟩ => ⟨S1x4096, .f32⟩
  | .hbm, ⟨2, _⟩ => ⟨S4096x22016, .bf16⟩
  | .hbm, ⟨3, _⟩ => ⟨S11008x4096, .bf16⟩
  | .hbm, ⟨4, _⟩ => ⟨S1x4096, .f32⟩
  | .hbm, ⟨5, _⟩ => ⟨S2048x4096, .f32⟩
  | .hbm, ⟨6, _⟩ => ⟨S_, .i32⟩
  | .hbm, ⟨7, _⟩ => ⟨S_, .f32⟩
  | .hbm, ⟨8, _⟩ => ⟨S2304x4096, .f32⟩
  | .hbm, ⟨9, _⟩ => ⟨S2304x4096, .f32⟩
  | .hbm, ⟨10, _⟩ => ⟨S2048x4096, .f32⟩
  | .hbm, ⟨11, _⟩ => ⟨S4x512x4096, .f32⟩
  | .local _ .vmem, ⟨0, _⟩ => ⟨S384x4096, .f32⟩
  | .local _ .vmem, ⟨1, _⟩ => ⟨S384x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | .local _ .vmem, ⟨8, _⟩ => ⟨S384x4096, .f32⟩
  | .local _ .vmem, ⟨9, _⟩ => ⟨S384x4096, .f32⟩
  | .local _ .vmem, ⟨10, _⟩ => ⟨S384x4096, .bf16⟩
  | .local _ .vmem, ⟨11, _⟩ => ⟨S384x4096, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 43], ![false, false]⟩

def k0_cond2 (i : grid0.Coords) : BitVec 1 :=
  let arg1 : BitVec 32 := BitVec.ofNat 32 (i 1).val
  let c42_i32 : BitVec 32 := 42#32
  let v19 : BitVec 1 := Scalar.cmpi .eq arg1 c42_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x512x4096_S2048x4096 : S4x512x4096.ShapeCasts S2048x4096
  pads_S2048x4096_S2304x4096_02560_000 : S2048x4096.Pads (![0, 0] : Fin 2 → Nat) ![256, 0] ![0, 0] S2304x4096
  h_S_ : 0 < S_.numel
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  reduces_S384x4096_S384 : S384x4096.Reduces [1] S384
  shapeCasts_S384_S384x1 : S384.ShapeCasts S384x1
  broadcasts_S384x1_S384x4096 : S384x1.Broadcasts S384x4096
  inb_S1x4096_S1x4096_0_0 : ∀ a, (![0, 0] : Fin 2 → Nat) a + S1x4096.size a ≤ S1x4096.size a
  h_S1x4096 : 0 < S1x4096.numel
  broadcasts_S1x4096_S384x4096 : S1x4096.Broadcasts S384x4096
  bitsLt_bf16_f32 : FTy.bits .bf16 < FTy.bits .f32
  packedbf16_S384x4096_S384x4096_0_0 : (Rect.unit (s := S384x4096) ![0, 0] S384x4096.size inb_S384x4096_S384x4096_0_0).PackedRows (EltTy.packing .bf16)
  inb_S4096x512_S4096x512_0_0 : ∀ a, (![0, 0] : Fin 2 → Nat) a + S4096x512.size a ≤ S4096x512.size a
  h_S4096x512 : 0 < S4096x512.numel
  slices_S384x512_o0_0_S384x256 : S384x512.Slices ![0, 0] S384x256
  slices_S384x512_o0_256_S384x256 : S384x512.Slices ![0, 256] S384x256
  inb_S256x4096_S256x4096_0_0 : ∀ a, (![0, 0] : Fin 2 → Nat) a + S256x4096.size a ≤ S256x4096.size a
  h_S256x4096 : 0 < S256x4096.numel
  slices_S2304x4096_S2048x4096_0_0 : S2304x4096.Slices ![0, 0] S2048x4096
  shapeCasts_S2048x4096_S4x512x4096 : S2048x4096.ShapeCasts S4x512x4096
  dot_S384x4096_S4096x512_S384x512_1_0_0_1_n_n_wf : DotDims.WF S384x4096 S4096x512 S384x512 [1] [0] [0] [1] [] []
  dot_S384x256_S256x4096_S384x4096_1_0_0_1_n_n_wf : DotDims.WF S384x256 S256x4096 S384x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x4096.size a ≤ S2304x4096.size a
  hwx0_0 : ∀ i : grid0.Coords, EltTy.bits .f32 = 32 ∨ (Rect.block (s := S2304x4096) S384x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x22016.size a
  hwx0_2 : ∀ i : grid0.Coords, EltTy.bits .bf16 = 32 ∨ (Rect.block (s := S4096x22016) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S384x4096.size a ≤ S2304x4096.size a
  hwx0_5 : ∀ i : grid0.Coords, EltTy.bits .f32 = 32 ∨ (Rect.block (s := S2304x4096) S384x4096.size (cc0_transform_5 i) (hinb0_5 i)).WholeWords (EltTy.packing .f32)

variable [Facts₀]

def dot_S384x4096_S4096x512_S384x512_1_0_0_1_n_n : DotDims S384x4096 S4096x512 S384x512 where
  lhsContracting := [1]
  rhsContracting := [0]
  lhsNonContracting := [0]
  rhsNonContracting := [1]
  lhsBatch := []
  rhsBatch := []
  wf := dot_S384x4096_S4096x512_S384x512_1_0_0_1_n_n_wf
def dot_S384x256_S256x4096_S384x4096_1_0_0_1_n_n : DotDims S384x256 S256x4096 S384x4096 where
  lhsContracting := [1]
  rhsContracting := [0]
  lhsNonContracting := [0]
  rhsNonContracting := [1]
  lhsBatch := []
  rhsBatch := []
  wf := dot_S384x256_S256x4096_S384x4096_1_0_0_1_n_n_wf

abbrev win0_0 : Pipeline.Window sig grid0 :=
  Pipeline.Window.ofSpec (Memref.whole main_v1) S384x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S384x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.BodyKernelShared.lean ====
/-
  What the three cases of the kernel body share.

  The grid is 4 token tiles × 44 steps, a point `t` being tile `t / 44` at step `k = t % 44`. The body has four
  guarded parts: at `k = 0` it normalises the tile's rows into the first scratch buffer and seeds the output block with
  the tile itself; at `k > 0` it adds the second scratch buffer times a block of the down weights onto the output block;
  at `k < 43` it fills the second scratch buffer with the gated product of the first times a block of the gate/up
  weights; at `k = 43` it normalises the output block in place. So a point is in one of three cases: first
  (`k = 0`: parts one and three), middle (`0 < k < 43`: parts two and three), last (`k = 43`: parts two and four).
  Here: the four guards decided over the grid, that no window is ever idle, and the names the cases are stated over.
-/
import proofs.«103741_g2000106300617579_pallasbulk_765_8_alg».proof.Proof.Gen.Kernel.Frame
import proofs.«103741_g2000106300617579_pallasbulk_765_8_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four guards, from the grid coordinates -/

/-- The guard of the part run at step 0. -/
abbrev isFirst (i : grid0.Coords) : Prop := k0_cond1 i = 1#1
/-- The guard of the part run at every step but step 0. -/
abbrev isLater (i : grid0.Coords) : Prop := k0_cond2 i = 1#1
/-- The guard of the part run at every step but step 43. -/
abbrev hasGate (i : grid0.Coords) : Prop :=
  (Scalar.cmpi .ne (Scalar.extui (Scalar.cmpi .slt (BitVec.ofNat 32 (i 1).val) 43#32)) 0#32) = 1#1
/-- The guard of the part run at step 43. -/
abbrev isLast (i : grid0.Coords) : Prop := k0_cond4 i = 1#1

theorem isFirst_iff : ∀ t : Fin cfg0.N, isFirst (grid0.coords t) ↔ t.val % 44 = 0 :=
  (by decide +kernel : ∀ t : Fin grid0.N, isFirst (grid0.coords t) ↔ t.val % 44 = 0)
theorem isLater_iff : ∀ t : Fin cfg0.N, isLater (grid0.coords t) ↔ ¬t.val % 44 = 0 :=
  (by decide +kernel : ∀ t : Fin grid0.N, isLater (grid0.coords t) ↔ ¬t.val % 44 = 0)
theorem hasGate_iff : ∀ t : Fin cfg0.N, hasGate (grid0.coords t) ↔ ¬t.val % 44 = 43 :=
  (by decide +kernel : ∀ t : Fin grid0.N, hasGate (grid0.coords t) ↔ ¬t.val % 44 = 43)
theorem isLast_iff : ∀ t : Fin cfg0.N, isLast (grid0.coords t) ↔ t.val % 44 = 43 :=
  (by decide +kernel : ∀ t : Fin grid0.N, isLast (grid0.coords t) ↔ t.val % 44 = 43)

/-! ## No window is idle anywhere: every step stores into the output block (step 0 seeds it, every other step adds to it) -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The same for the output at ANY coordinates: the guards read the step coordinate only, and a step is `0` or later. -/
theorem live5_all : ∀ i : grid0.Coords, cfg0.idle 5 i = false := by
  have h : ∀ j : Fin 44,
      (!(Scalar.cmpi .ne (Scalar.extui (Scalar.cmpi .eq (BitVec.ofNat 32 j.val) 0#32)) 0#32 == 1#1)
        && !(Scalar.cmpi .ne (Scalar.extui (Scalar.cmpi .sgt (BitVec.ofNat 32 j.val) 0#32)) 0#32 == 1#1)
        && !(Scalar.cmpi .ne (Scalar.extui (Scalar.cmpi .eq (BitVec.ofNat 32 j.val) 43#32)) 0#32 == 1#1)) = false := by
    decide +kernel
  intro i
  exact h (i 1)

/-! ## The memrefs the body is called with -/

/-- One staging buffer of the output window, through which its contents are stated. -/
abbrev VO : View sig .tc .vmem S512x4096 .f32 := (Memref.whole cc0_stg5_0 : Memref sig .tc .vmem S512x4096 .f32).view
/-- Each window's current staging memref at point `t`, as the pipeline passes it, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4096 .f32 := win0_5.stage (cfg0.slots t 5)
abbrev hs5 (t : Fin cfg0.N) : (ms5 t).IsWhole := hstage0_5 ((cfg0.slots t 5).cast nbuf0_5)
/-- The two scratch buffers: the normalised rows, and the gated block one step behind. -/
abbrev scX : Memref sig .tc .vmem S512x4096 .bf16 := Memref.whole cc0_scratch0
abbrev scG : Memref sig .tc .vmem S512x256 .bf16 := Memref.whole cc0_scratch1
abbrev VX : View sig .tc .vmem S512x4096 .bf16 := scX.view
abbrev VG : View sig .tc .vmem S512x256 .bf16 := scG.view

/-- The region's invariant with the two scratch buffers as memrefs owned at some contents. -/
theorem PhiA_eq (c : Dev nD) :
    (Pipeline.ΦA spec0 c : sProp 𝕄)
      = iprop(iprop((∃ d, owns (c : Thread nD τ) scX fullShare d) ∗ (∃ d, owns (c : Thread nD τ) scG fullShare d)) ∗ (∃ r, prngReg c r)) := by
  unfold Pipeline.ΦA; rw [scopedRest0_eq]; simp only [scX, scG, owns_whole]; try rfl

end Cert.Kernel.Body

end
-- ==== Proof.BodyKernelRunMid.lean ====
/-
  The kernel body at a middle step (`0 < k < 43`), on any whole staging and scratch memrefs.

  With the output block at `o`, the normalised rows at `x` and the gated block at `g`, the step leaves the output
  block at `o + g · W2` (the down weights' block the step was handed), `x` untouched, and the gated block at the gated
  product of `x · W13` (the gate/up weights' block the step was handed): the symbolic run of the body's four guarded
  parts with the second and third taken, the lists of stores each buffer ends with being what the run finds.
-/
import proofs.«103741_g2000106300617579_pallasbulk_765_8_alg».proof.Proof.BodyKernelShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a middle step leaves in the output block and in the gated scratch (last first), with the proof that
    from the inputs at their blocks, the output block at `xo` and the two scratch buffers at `xs0`, `xs1` the body
    runs to any continuation that holds of the inputs as they were, the output block and the gated scratch with those
    stores written, and the first scratch untouched. -/
noncomputable def runMid (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : ¬isFirst i) (hc2 : isLater i) (hc3 : hasGate i) (hc4 : ¬isLast i)
    (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    Σ' (L5 : List (View.Piece (Elt F) S512x4096 .f32)), { LS1 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, ?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.Kernel.Body

end
-- ==== Proof.BodyKernelRunFirst.lean ====
/-
  The kernel body at the first step of a tile (`k = 0`), on any whole staging and scratch memrefs.

  Whatever the output block and the two scratch buffers held, the step leaves the first scratch at the tile's rows
  normalised and scaled by the first norm's weights, the output block at the tile itself (the residual the later steps
  add onto), and the gated scratch at the gated product of the normalised rows times the first block of the gate/up
  weights — the third guarded part reading the first scratch back after the first part stored it.
-/
import proofs.«103741_g2000106300617579_pallasbulk_765_8_alg».proof.Proof.BodyKernelRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a first step leaves in the output block and in the two scratch buffers (last first), with the proof
    that from the inputs at their blocks and those three buffers at anything the body runs to any continuation that
    holds of the inputs as they were and the three buffers with those stores written. -/
noncomputable def runFirst (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : isFirst i) (hc2 : ¬isLater i) (hc3 : hasGate i) (hc4 : ¬isLast i)
    (x0 : Vec F S512x4096 .f32) (x1 : Vec F S1x4096 .f32) (x2 : Vec F S4096x512 .bf16) (x3 : Vec F S256x4096 .bf16) (x4 : Vec F S1x4096 .f32) :
    Σ' (L5 : List (View.Piece (Elt F) S512x4096 .f32)), Σ' (LS0 : List (View.Piece (Elt F) S512x4096 .bf16)), { LS1 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, ?_, ?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Body

end
-- ==== Proof.BodyKernelRunLast.lean ====
/-
  The kernel body at the last step of a tile (`k = 43`), on any whole staging and scratch memrefs.

  With the output block at `o` and the gated block at `g`, the step first stores `o + g · W2` (the last block of the
  down weights) into the output block, then reads that back, normalises its rows and scales them by the second norm's
  weights, and stores the result over it; the two scratch buffers are left as they were.
-/
import proofs.«103741_g2000106300617579_pallasbulk_765_8_alg».proof.Proof.BodyKernelRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores a last step leaves in the output block (last first), with the proof that from the inputs at their
    blocks, the output block at `xo` and the two scratch buffers at `xs0`, `xs1` the body runs to any continuation
    that holds of the inputs and the scratch buffers as they were and the output block with those stores written. -/
noncomputable def runLast (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : ¬isFirst i) (hc2 : isLater i) (hc3 : ¬hasGate i) (hc4 : isLast i)
    (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    { L5 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.Kernel.Body

end
-- ==== Proof.BodyKernelFrame.lean ====
/-
  The kernel's run as a whole: what the output block and the two scratch buffers hold after every grid point, and
  from it the proof that every execution terminates without a fault with the argument arrays unchanged.

  After point `t` (tile `t / 44`, step `t % 44`) the three buffers hold what the step's case leaves, computed from
  the blocks the step was handed and — at a middle or last step — from what the point before left: the output block
  is not written back between the steps of a tile (only after step 43), so a later step finds in it what the step
  before stored, and at step 0 it is a fresh buffer the step overwrites. The scratch buffers are the kernel's own and
  keep their contents from point to point. The invariant carried from point to point is therefore: the two scratch
  buffers at what the point before left (at anything before the first point).
-/
import proofs.«103741_g2000106300617579_pallasbulk_765_8_alg».proof.Proof.BodyKernelRunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores read back -/

theorem coverFirst5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x4096.Idx) :
    ∃ pc ∈ (runFirst c i arg2 harg2 arg3 harg3 arg4 harg4 arg5 harg5 arg6 harg6 arg7 harg7 arg8 harg8 arg9 harg9 hc1 hc2 hc3 hc4 x0 x1 x2 x3 x4).1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).1 S512x4096.size (by sl_kernel_rfl) y
theorem coverFirstX (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x4096.Idx) :
    ∃ pc ∈ (runFirst c i arg2 harg2 arg3 harg3 arg4 harg4 arg5 harg5 arg6 harg6 arg7 harg7 arg8 harg8 arg9 harg9 hc1 hc2 hc3 hc4 x0 x1 x2 x3 x4).2.1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).2.1 S512x4096.size (by sl_kernel_rfl) y
theorem coverFirstG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x256.Idx) :
    ∃ pc ∈ (runFirst c i arg2 harg2 arg3 harg3 arg4 harg4 arg5 harg5 arg6 harg6 arg7 harg7 arg8 harg8 arg9 harg9 hc1 hc2 hc3 hc4 x0 x1 x2 x3 x4).2.2.1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).2.2.1 S512x256.size (by sl_kernel_rfl) y
theorem coverMid5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x4096.Idx) :
    ∃ pc ∈ (runMid c i arg2 harg2 arg3 harg3 arg4 harg4 arg5 harg5 arg6 harg6 arg7 harg7 arg8 harg8 arg9 harg9 hc1 hc2 hc3 hc4 x0 x1 x2 x3 x4 xo xs0 xs1).1, y ∈ pc.1.set :=
  View.cover_of_tiledL (runMid c i arg2 harg2 arg3 harg3 arg4 harg4 arg5 harg5 arg6 harg6 arg7 harg7 arg8 harg8 arg9 harg9 hc1 hc2 hc3 hc4 x0 x1 x2 x3 x4 xo xs0 xs1).1 S512x4096.size (by sl_kernel_rfl) y
theorem coverMidG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x256.Idx) :
    ∃ pc ∈ (runMid c i arg2 harg2 arg3 harg3 arg4 harg4 arg5 harg5 arg6 harg6 arg7 harg7 arg8 harg8 arg9 harg9 hc1 hc2 hc3 hc4 x0 x1 x2 x3 x4 xo xs0 xs1).2.1, y ∈ pc.1.set :=
  View.cover_of_tiledL (runMid c i arg2 harg2 arg3 harg3 arg4 harg4 arg5 harg5 arg6 harg6 arg7 harg7 arg8 harg8 arg9 harg9 hc1 hc2 hc3 hc4 x0 x1 x2 x3 x4 xo xs0 xs1).2.1 S512x256.size (by sl_kernel_rfl) y
theorem coverLast5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : ¬hasGate i) (hc4 : isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x4096.Idx) :
    ∃ pc ∈ (runLast c i arg2 harg2 arg3 harg3 arg4 harg4 arg5 harg5 arg6 harg6 arg7 harg7 arg8 harg8 arg9 harg9 hc1 hc2 hc3 hc4 x0 x1 x2 x3 x4 xo xs0 xs1).1, y ∈ pc.1.set :=
  View.cover_of_tiledL (runLast c i arg2 harg2 arg3 harg3 arg4 harg4 arg5 harg5 arg6 harg6 arg7 harg7 arg8 harg8 arg9 harg9 hc1 hc2 hc3 hc4 x0 x1 x2 x3 x4 xo xs0 xs1).1 S512x4096.size (by sl_kernel_rfl) y

/-- What a first step leaves in the output block, -/
def outFirst5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x4096 .f32 :=
  VO.read (Elt F) (VO.writes (Elt F) VO.junk (runFirst c i arg2 harg2 arg3 harg3 arg4 harg4 arg5 harg5 arg6 harg6 arg7 harg7 arg8 harg8 arg9 harg9 hc1 hc2 hc3 hc4 x0 x1 x2 x3 x4).1)
/-- in the scratch of normalised rows, -/
def outFirstX (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x4096 .bf16 :=
  VX.read (Elt F) (VX.writes (Elt F) VX.junk (runFirst c i arg2 harg2 arg3 harg3 arg4 harg4 arg5 harg5 arg6 harg6 arg7 harg7 arg8 harg8 arg9 harg9 hc1 hc2 hc3 hc4 x0 x1 x2 x3 x4).2.1)
/-- and in the gated scratch. -/
def outFirstG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x256 .bf16 :=
  VG.read (Elt F) (VG.writes (Elt F) VG.junk (runFirst c i arg2 harg2 arg3 harg3 arg4 harg4 arg5 harg5 arg6 harg6 arg7 harg7 arg8 harg8 arg9 harg9 hc1 hc2 hc3 hc4 x0 x1 x2 x3 x4).2.2.1)
/-- What a middle step leaves in the output block -/
def outMid5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x4096 .f32 :=
  VO.read (Elt F) (VO.writes (Elt F) VO.junk (runMid c i arg2 harg2 arg3 harg3 arg4 harg4 arg5 harg5 arg6 harg6 arg7 harg7 arg8 harg8 arg9 harg9 hc1 hc2 hc3 hc4 x0 x1 x2 x3 x4 xo xs0 xs1).1)
/-- and in the gated scratch. -/
def outMidG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x256 .bf16 :=
  VG.read (Elt F) (VG.writes (Elt F) VG.junk (runMid c i arg2 harg2 arg3 harg3 arg4 harg4 arg5 harg5 arg6 harg6 arg7 harg7 arg8 harg8 arg9 harg9 hc1 hc2 hc3 hc4 x0 x1 x2 x3 x4 xo xs0 xs1).2.1)
/-- What a last step leaves in the output block. -/
def outLast5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : ¬hasGate i) (hc4 : isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x4096 .f32 :=
  VO.read (Elt F) (VO.writes (Elt F) VO.junk (runLast c i arg2 harg2 arg3 harg3 arg4 harg4 arg5 harg5 arg6 harg6 arg7 harg7 arg8 harg8 arg9 harg9 hc1 hc2 hc3 hc4 x0 x1 x2 x3 x4 xo xs0 xs1).1)

/-! ## What the three buffers hold after each point -/

/-- After a first step: all three from the step's blocks. -/
def firstOuts (c : Dev nD) (t : Fin cfg0.N) (h0 : t.val % 44 = 0) : Vec F S512x4096 .f32 × Vec F S512x4096 .bf16 × Vec F S512x256 .bf16 :=
  (outFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t),
   outFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t),
   outFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))

/-- After a middle step: the output block and the gated scratch from the step's blocks and what the point before
    left; the normalised rows as the point before left them. -/
def midOuts (c : Dev nD) (t : Fin cfg0.N) (h0 : ¬t.val % 44 = 0) (h1 : ¬t.val % 44 = 43) (prev : Vec F S512x4096 .f32 × Vec F S512x4096 .bf16 × Vec F S512x256 .bf16) : Vec F S512x4096 .f32 × Vec F S512x4096 .bf16 × Vec F S512x256 .bf16 :=
  (outMid5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2,
   prev.2.1,
   outMidG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2)

/-- After a last step: the output block from the step's blocks and what the point before left; both scratch buffers
    as the point before left them. -/
def lastOuts (c : Dev nD) (t : Fin cfg0.N) (h0 : ¬t.val % 44 = 0) (h1 : t.val % 44 = 43) (prev : Vec F S512x4096 .f32 × Vec F S512x4096 .bf16 × Vec F S512x256 .bf16) : Vec F S512x4096 .f32 × Vec F S512x4096 .bf16 × Vec F S512x256 .bf16 :=
  (outLast5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) prev.1 prev.2.1 prev.2.2,
   prev.2.1,
   prev.2.2)

/-- The output block, the normalised rows and the gated block after the body at position `n`, by recursion on the
    position: the case the step number selects, over what position `n - 1` left. -/
def outsAt (c : Dev nD) : (n : ℕ) → n < cfg0.N → Vec F S512x4096 .f32 × Vec F S512x4096 .bf16 × Vec F S512x256 .bf16
  | 0, hn => firstOuts m c ⟨0, hn⟩ (Nat.zero_mod _)
  | n + 1, hn =>
    if h0 : (n + 1) % 44 = 0 then firstOuts m c ⟨n + 1, hn⟩ h0
    else if h1 : (n + 1) % 44 = 43 then lastOuts m c ⟨n + 1, hn⟩ h0 h1 (outsAt c n (Nat.lt_of_succ_lt hn))
    else midOuts m c ⟨n + 1, hn⟩ h0 h1 (outsAt c n (Nat.lt_of_succ_lt hn))

theorem outsAt_first (c : Dev nD) (t : Fin cfg0.N) (h0 : t.val % 44 = 0) :
    outsAt m c t.val t.isLt = firstOuts m c t h0 := by
  obtain ⟨n, hn⟩ := t
  cases n with
  | zero => exact rfl
  | succ n => exact (dif_pos h0).trans rfl

theorem outsAt_mid (c : Dev nD) (t : Fin cfg0.N) (h0 : ¬t.val % 44 = 0) (h1 : ¬t.val % 44 = 43) :
    outsAt m c t.val t.isLt = midOuts m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 44 = 0) (h1 : t.val % 44 = 43) :
    outsAt m c t.val t.isLt = lastOuts m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before position `n`: before the first point the two scratch buffers at anything; afterwards at what the point
    before left in them; the generator register at some state throughout. -/
def PhiS (c : Dev nD) : (n : ℕ) → n ≤ cfg0.N → sProp 𝕄
  | 0, _ => Pipeline.ΦA spec0 c
  | n + 1, hn => iprop(iprop(owns (c : Thread nD τ) scX fullShare ((outsAt m c n hn).2.1) ∗ owns (c : Thread nD τ) scG fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scX fullShare ((outsAt m c n hn).2.1) ∗ owns (c : Thread nD τ) scG fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scX fullShare ((outsAt m c (n - 1) (by omega)).2.1) ∗ owns (c : Thread nD τ) scG fullShare ((outsAt m c (n - 1) (by omega)).2.2)) ∗ (∃ r, prngReg c r)) := by
  cases n with
  | zero => exact absurd rfl hz
  | succ n => rfl

/-! ## The proof data -/

/-- The arrays as the region finds them; after the body at point `t` each input's buffer at its block and the
    output's at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a first step the output's current staging buffer is fresh (the first point, or the point after a write-back):
    it holds anything. -/
theorem before5_first (c : Dev nD) (t : Fin cfg0.N) (h0 : t.val % 44 = 0) (d) : (dats m 0 c).before 5 t d = d := by
  have hN : t.val < 176 := lt_of_lt_of_eq t.isLt (show cfg0.N = 176 from N_0)
  refine Dat.before_out_reset _ 5 rfl t ?_ d
  by_cases hz : t.val = 0
  · exact .inl hz
  · exact .inr ⟨hz, (flush0_5 _).mpr (by dsimp only; omega)⟩

/-- At any other step it holds what the body left at the point before: the block was not written back between. -/
theorem before5_later (c : Dev nD) (t : Fin cfg0.N) (h0 : ¬t.val % 44 = 0) (d) :
    (dats m 0 c).before 5 t d = (outsAt m c (t.val - 1) (Nat.lt_of_le_of_lt (Nat.sub_le _ _) t.isLt)).1 := by
  have hN : t.val < 176 := lt_of_lt_of_eq t.isLt (show cfg0.N = 176 from N_0)
  rw [Dat.before_out_kept _ 5 rfl t (by omega) (Bool.eq_false_iff.mpr fun h => by have := (flush0_5 _).mp h; dsimp only at this; omega)
    live5_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' buffers hold their blocks; the step number says which case the point is in;
    the output block holds anything at a first step and what the point before left otherwise; the invariant hands the
    body the scratch buffers at what the point before left and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 44 = 0
  · simp only [before5_first m c t h0]
    rw [outsAt_first m c t h0]
    unfold firstOuts outFirst5 outFirstX outFirstG; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
          unfold owns; iexists _; isplitr
          swap; · iexact HS1
          ipureintro; exact View.read_writes_of_cover _ _ _ _ _ (coverFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
          unfold owns; iexists _; isplitr
          swap; · iexact HS1
          ipureintro; exact View.read_writes_of_cover _ _ _ _ _ (coverFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
  · have hz : t.val ≠ 0 := fun h => h0 (by rw [h])
    simp only [before5_later m c t h0]
    rw [PhiS_castSucc m c t, PhiS_pos m c _ _ hz]
    by_cases h1 : t.val % 44 = 43
    · rw [outsAt_last m c t h0 h1]
      unfold lastOuts outLast5; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) _ _ _)
    · rw [outsAt_mid m c t h0 h1]
      unfold midOuts outMid5 outMidG; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverMidG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMid5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 176 := N_0; omega)

/-! ## The run and the frame -/

set_option backward.isDefEq.respectTransparency.types false in
/-- From any memory with zero counters every weakly fair execution of the program terminates, and every final state
    has every array of the pipeline at what the library computes from the proof data and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyKernelIdealShared.lean ====
/-
  What the three cases of the kernel body share.

  The grid is 4 token tiles × 44 steps, a point `t` being tile `t / 44` at step `k = t % 44`. The body has four
  guarded parts: at `k = 0` it normalises the tile's rows into the first scratch buffer and seeds the output block with
  the tile itself; at `k > 0` it adds the second scratch buffer times a block of the down weights onto the output block;
  at `k < 43` it fills the second scratch buffer with the gated product of the first times a block of the gate/up
  weights; at `k = 43` it normalises the output block in place. So a point is in one of three cases: first
  (`k = 0`: parts one and three), middle (`0 < k < 43`: parts two and three), last (`k = 43`: parts two and four).
  Here: the four guards decided over the grid, that no window is ever idle, and the names the cases are stated over.
-/
import proofs.«103741_g2000106300617579_pallasbulk_765_8_alg».proof.Proof.Gen.KernelIdeal.Frame
import proofs.«103741_g2000106300617579_pallasbulk_765_8_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four guards, from the grid coordinates -/

/-- The guard of the part run at step 0. -/
abbrev isFirst (i : grid0.Coords) : Prop := k0_cond1 i = 1#1
/-- The guard of the part run at every step but step 0. -/
abbrev isLater (i : grid0.Coords) : Prop := k0_cond2 i = 1#1
/-- The guard of the part run at every step but step 43. -/
abbrev hasGate (i : grid0.Coords) : Prop :=
  (Scalar.cmpi .ne (Scalar.extui (Scalar.cmpi .slt (BitVec.ofNat 32 (i 1).val) 43#32)) 0#32) = 1#1
/-- The guard of the part run at step 43. -/
abbrev isLast (i : grid0.Coords) : Prop := k0_cond4 i = 1#1

theorem isFirst_iff : ∀ t : Fin cfg0.N, isFirst (grid0.coords t) ↔ t.val % 44 = 0 :=
  (by decide +kernel : ∀ t : Fin grid0.N, isFirst (grid0.coords t) ↔ t.val % 44 = 0)
theorem isLater_iff : ∀ t : Fin cfg0.N, isLater (grid0.coords t) ↔ ¬t.val % 44 = 0 :=
  (by decide +kernel : ∀ t : Fin grid0.N, isLater (grid0.coords t) ↔ ¬t.val % 44 = 0)
theorem hasGate_iff : ∀ t : Fin cfg0.N, hasGate (grid0.coords t) ↔ ¬t.val % 44 = 43 :=
  (by decide +kernel : ∀ t : Fin grid0.N, hasGate (grid0.coords t) ↔ ¬t.val % 44 = 43)
theorem isLast_iff : ∀ t : Fin cfg0.N, isLast (grid0.coords t) ↔ t.val % 44 = 43 :=
  (by decide +kernel : ∀ t : Fin grid0.N, isLast (grid0.coords t) ↔ t.val % 44 = 43)

/-! ## No window is idle anywhere: every step stores into the output block (step 0 seeds it, every other step adds to it) -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The same for the output at ANY coordinates: the guards read the step coordinate only, and a step is `0` or later. -/
theorem live5_all : ∀ i : grid0.Coords, cfg0.idle 5 i = false := by
  have h : ∀ j : Fin 44,
      (!(Scalar.cmpi .ne (Scalar.extui (Scalar.cmpi .eq (BitVec.ofNat 32 j.val) 0#32)) 0#32 == 1#1)
        && !(Scalar.cmpi .ne (Scalar.extui (Scalar.cmpi .sgt (BitVec.ofNat 32 j.val) 0#32)) 0#32 == 1#1)
        && !(Scalar.cmpi .ne (Scalar.extui (Scalar.cmpi .eq (BitVec.ofNat 32 j.val) 43#32)) 0#32 == 1#1)) = false := by
    decide +kernel
  intro i
  exact h (i 1)

/-! ## The memrefs the body is called with -/

/-- One staging buffer of the output window, through which its contents are stated. -/
abbrev VO : View sig .tc .vmem S512x4096 .f32 := (Memref.whole cc0_stg5_0 : Memref sig .tc .vmem S512x4096 .f32).view
/-- Each window's current staging memref at point `t`, as the pipeline passes it, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4096 .f32 := win0_5.stage (cfg0.slots t 5)
abbrev hs5 (t : Fin cfg0.N) : (ms5 t).IsWhole := hstage0_5 ((cfg0.slots t 5).cast nbuf0_5)
/-- The two scratch buffers: the normalised rows, and the gated block one step behind. -/
abbrev scX : Memref sig .tc .vmem S512x4096 .bf16 := Memref.whole cc0_scratch0
abbrev scG : Memref sig .tc .vmem S512x256 .bf16 := Memref.whole cc0_scratch1
abbrev VX : View sig .tc .vmem S512x4096 .bf16 := scX.view
abbrev VG : View sig .tc .vmem S512x256 .bf16 := scG.view

/-- The region's invariant with the two scratch buffers as memrefs owned at some contents. -/
theorem PhiA_eq (c : Dev nD) :
    (Pipeline.ΦA spec0 c : sProp 𝕄)
      = iprop(iprop((∃ d, owns (c : Thread nD τ) scX fullShare d) ∗ (∃ d, owns (c : Thread nD τ) scG fullShare d)) ∗ (∃ r, prngReg c r)) := by
  unfold Pipeline.ΦA; rw [scopedRest0_eq]; simp only [scX, scG, owns_whole]; try rfl

end Cert.KernelIdeal.Body

end
-- ==== Proof.BodyKernelIdealRunMid.lean ====
/-
  The kernel body at a middle step (`0 < k < 43`), on any whole staging and scratch memrefs.

  With the output block at `o`, the normalised rows at `x` and the gated block at `g`, the step leaves the output
  block at `o + g · W2` (the down weights' block the step was handed), `x` untouched, and the gated block at the gated
  product of `x · W13` (the gate/up weights' block the step was handed): the symbolic run of the body's four guarded
  parts with the second and third taken, the lists of stores each buffer ends with being what the run finds.
-/
import proofs.«103741_g2000106300617579_pallasbulk_765_8_alg».proof.Proof.BodyKernelIdealShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a middle step leaves in the output block and in the gated scratch (last first), with the proof that
    from the inputs at their blocks, the output block at `xo` and the two scratch buffers at `xs0`, `xs1` the body
    runs to any continuation that holds of the inputs as they were, the output block and the gated scratch with those
    stores written, and the first scratch untouched. -/
noncomputable def runMid (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : ¬isFirst i) (hc2 : isLater i) (hc3 : hasGate i) (hc4 : ¬isLast i)
    (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    Σ' (L5 : List (View.Piece (Elt F) S512x4096 .f32)), { LS1 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, ?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.KernelIdeal.Body

end
-- ==== Proof.BodyKernelIdealRunFirst.lean ====
/-
  The kernel body at the first step of a tile (`k = 0`), on any whole staging and scratch memrefs.

  Whatever the output block and the two scratch buffers held, the step leaves the first scratch at the tile's rows
  normalised and scaled by the first norm's weights, the output block at the tile itself (the residual the later steps
  add onto), and the gated scratch at the gated product of the normalised rows times the first block of the gate/up
  weights — the third guarded part reading the first scratch back after the first part stored it.
-/
import proofs.«103741_g2000106300617579_pallasbulk_765_8_alg».proof.Proof.BodyKernelIdealRunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a first step leaves in the output block and in the two scratch buffers (last first), with the proof
    that from the inputs at their blocks and those three buffers at anything the body runs to any continuation that
    holds of the inputs as they were and the three buffers with those stores written. -/
noncomputable def runFirst (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : isFirst i) (hc2 : ¬isLater i) (hc3 : hasGate i) (hc4 : ¬isLast i)
    (x0 : Vec F S512x4096 .f32) (x1 : Vec F S1x4096 .f32) (x2 : Vec F S4096x512 .bf16) (x3 : Vec F S256x4096 .bf16) (x4 : Vec F S1x4096 .f32) :
    Σ' (L5 : List (View.Piece (Elt F) S512x4096 .f32)), Σ' (LS0 : List (View.Piece (Elt F) S512x4096 .bf16)), { LS1 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, ?_, ?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Body

end
-- ==== Proof.BodyKernelIdealRunLast.lean ====
/-
  The kernel body at the last step of a tile (`k = 43`), on any whole staging and scratch memrefs.

  With the output block at `o` and the gated block at `g`, the step first stores `o + g · W2` (the last block of the
  down weights) into the output block, then reads that back, normalises its rows and scales them by the second norm's
  weights, and stores the result over it; the two scratch buffers are left as they were.
-/
import proofs.«103741_g2000106300617579_pallasbulk_765_8_alg».proof.Proof.BodyKernelIdealRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a last step leaves in the output block (last first), with the proof that from the inputs at their
    blocks, the output block at `xo` and the two scratch buffers at `xs0`, `xs1` the body runs to any continuation
    that holds of the inputs and the scratch buffers as they were and the output block with those stores written. -/
noncomputable def runLast (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole)
    (hc1 : ¬isFirst i) (hc2 : isLater i) (hc3 : ¬hasGate i) (hc4 : isLast i)
    (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    { L5 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__ffn_block_kernel i arg2 harg2 arg3 harg3 arg4 harg4 arg5 harg5 arg6 harg6 arg7 harg7 arg8 harg8 arg9 harg9) K } := by
  refine ⟨?_, fun E K => ?run⟩
  case run =>
    simp only [cc0__ffn_block_kernel_eq_skeleton]; unfold cc0__ffn_block_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.KernelIdeal.Body

end
-- ==== Proof.BodyKernelIdealFrame.lean ====
/-
  The kernel's run as a whole: what the output block and the two scratch buffers hold after every grid point, and
  from it the proof that every execution terminates without a fault with the argument arrays unchanged.

  After point `t` (tile `t / 44`, step `t % 44`) the three buffers hold what the step's case leaves, computed from
  the blocks the step was handed and — at a middle or last step — from what the point before left: the output block
  is not written back between the steps of a tile (only after step 43), so a later step finds in it what the step
  before stored, and at step 0 it is a fresh buffer the step overwrites. The scratch buffers are the kernel's own and
  keep their contents from point to point. The invariant carried from point to point is therefore: the two scratch
  buffers at what the point before left (at anything before the first point).
-/
import proofs.«103741_g2000106300617579_pallasbulk_765_8_alg».proof.Proof.BodyKernelIdealRunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its stores read back -/

theorem coverFirst5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x4096.Idx) :
    ∃ pc ∈ (runFirst c i arg2 harg2 arg3 harg3 arg4 harg4 arg5 harg5 arg6 harg6 arg7 harg7 arg8 harg8 arg9 harg9 hc1 hc2 hc3 hc4 x0 x1 x2 x3 x4).1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).1 S512x4096.size (by sl_kernel_rfl) y
theorem coverFirstX (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x4096.Idx) :
    ∃ pc ∈ (runFirst c i arg2 harg2 arg3 harg3 arg4 harg4 arg5 harg5 arg6 harg6 arg7 harg7 arg8 harg8 arg9 harg9 hc1 hc2 hc3 hc4 x0 x1 x2 x3 x4).2.1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).2.1 S512x4096.size (by sl_kernel_rfl) y
theorem coverFirstG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (y : S512x256.Idx) :
    ∃ pc ∈ (runFirst c i arg2 harg2 arg3 harg3 arg4 harg4 arg5 harg5 arg6 harg6 arg7 harg7 arg8 harg8 arg9 harg9 hc1 hc2 hc3 hc4 x0 x1 x2 x3 x4).2.2.1, y ∈ pc.1.set :=
  View.cover_of_tiledL (runFirst c i arg2 harg2 arg3 harg3 arg4 harg4 arg5 harg5 arg6 harg6 arg7 harg7 arg8 harg8 arg9 harg9 hc1 hc2 hc3 hc4 x0 x1 x2 x3 x4).2.2.1 S512x256.size (by sl_kernel_rfl) y
theorem coverMid5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x4096.Idx) :
    ∃ pc ∈ (runMid c i arg2 harg2 arg3 harg3 arg4 harg4 arg5 harg5 arg6 harg6 arg7 harg7 arg8 harg8 arg9 harg9 hc1 hc2 hc3 hc4 x0 x1 x2 x3 x4 xo xs0 xs1).1, y ∈ pc.1.set :=
  View.cover_of_tiledL (runMid c i arg2 harg2 arg3 harg3 arg4 harg4 arg5 harg5 arg6 harg6 arg7 harg7 arg8 harg8 arg9 harg9 hc1 hc2 hc3 hc4 x0 x1 x2 x3 x4 xo xs0 xs1).1 S512x4096.size (by sl_kernel_rfl) y
theorem coverMidG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x256.Idx) :
    ∃ pc ∈ (runMid c i arg2 harg2 arg3 harg3 arg4 harg4 arg5 harg5 arg6 harg6 arg7 harg7 arg8 harg8 arg9 harg9 hc1 hc2 hc3 hc4 x0 x1 x2 x3 x4 xo xs0 xs1).2.1, y ∈ pc.1.set :=
  View.cover_of_tiledL (runMid c i arg2 harg2 arg3 harg3 arg4 harg4 arg5 harg5 arg6 harg6 arg7 harg7 arg8 harg8 arg9 harg9 hc1 hc2 hc3 hc4 x0 x1 x2 x3 x4 xo xs0 xs1).2.1 S512x256.size (by sl_kernel_rfl) y
theorem coverLast5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : ¬hasGate i) (hc4 : isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) (y : S512x4096.Idx) :
    ∃ pc ∈ (runLast c i arg2 harg2 arg3 harg3 arg4 harg4 arg5 harg5 arg6 harg6 arg7 harg7 arg8 harg8 arg9 harg9 hc1 hc2 hc3 hc4 x0 x1 x2 x3 x4 xo xs0 xs1).1, y ∈ pc.1.set :=
  View.cover_of_tiledL (runLast c i arg2 harg2 arg3 harg3 arg4 harg4 arg5 harg5 arg6 harg6 arg7 harg7 arg8 harg8 arg9 harg9 hc1 hc2 hc3 hc4 x0 x1 x2 x3 x4 xo xs0 xs1).1 S512x4096.size (by sl_kernel_rfl) y

/-- What a first step leaves in the output block, -/
def outFirst5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x4096 .f32 :=
  VO.read (Elt F) (VO.writes (Elt F) VO.junk (runFirst c i arg2 harg2 arg3 harg3 arg4 harg4 arg5 harg5 arg6 harg6 arg7 harg7 arg8 harg8 arg9 harg9 hc1 hc2 hc3 hc4 x0 x1 x2 x3 x4).1)
/-- in the scratch of normalised rows, -/
def outFirstX (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x4096 .bf16 :=
  VX.read (Elt F) (VX.writes (Elt F) VX.junk (runFirst c i arg2 harg2 arg3 harg3 arg4 harg4 arg5 harg5 arg6 harg6 arg7 harg7 arg8 harg8 arg9 harg9 hc1 hc2 hc3 hc4 x0 x1 x2 x3 x4).2.1)
/-- and in the gated scratch. -/
def outFirstG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) : Vec F S512x256 .bf16 :=
  VG.read (Elt F) (VG.writes (Elt F) VG.junk (runFirst c i arg2 harg2 arg3 harg3 arg4 harg4 arg5 harg5 arg6 harg6 arg7 harg7 arg8 harg8 arg9 harg9 hc1 hc2 hc3 hc4 x0 x1 x2 x3 x4).2.2.1)
/-- What a middle step leaves in the output block -/
def outMid5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x4096 .f32 :=
  VO.read (Elt F) (VO.writes (Elt F) VO.junk (runMid c i arg2 harg2 arg3 harg3 arg4 harg4 arg5 harg5 arg6 harg6 arg7 harg7 arg8 harg8 arg9 harg9 hc1 hc2 hc3 hc4 x0 x1 x2 x3 x4 xo xs0 xs1).1)
/-- and in the gated scratch. -/
def outMidG (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x256 .bf16 :=
  VG.read (Elt F) (VG.writes (Elt F) VG.junk (runMid c i arg2 harg2 arg3 harg3 arg4 harg4 arg5 harg5 arg6 harg6 arg7 harg7 arg8 harg8 arg9 harg9 hc1 hc2 hc3 hc4 x0 x1 x2 x3 x4 xo xs0 xs1).2.1)
/-- What a last step leaves in the output block. -/
def outLast5 (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : ¬hasGate i) (hc4 : isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) : Vec F S512x4096 .f32 :=
  VO.read (Elt F) (VO.writes (Elt F) VO.junk (runLast c i arg2 harg2 arg3 harg3 arg4 harg4 arg5 harg5 arg6 harg6 arg7 harg7 arg8 harg8 arg9 harg9 hc1 hc2 hc3 hc4 x0 x1 x2 x3 x4 xo xs0 xs1).1)

/-! ## What the three buffers hold after each point -/

/-- After a first step: all three from the step's blocks. -/
def firstOuts (c : Dev nD) (t : Fin cfg0.N) (h0 : t.val % 44 = 0) : Vec F S512x4096 .f32 × Vec F S512x4096 .bf16 × Vec F S512x256 .bf16 :=
  (outFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t),
   outFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t),
   outFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))

/-- After a middle step: the output block and the gated scratch from the step's blocks and what the point before
    left; the normalised rows as the point before left them. -/
def midOuts (c : Dev nD) (t : Fin cfg0.N) (h0 : ¬t.val % 44 = 0) (h1 : ¬t.val % 44 = 43) (prev : Vec F S512x4096 .f32 × Vec F S512x4096 .bf16 × Vec F S512x256 .bf16) : Vec F S512x4096 .f32 × Vec F S512x4096 .bf16 × Vec F S512x256 .bf16 :=
  (outMid5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2,
   prev.2.1,
   outMidG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2)

/-- After a last step: the output block from the step's blocks and what the point before left; both scratch buffers
    as the point before left them. -/
def lastOuts (c : Dev nD) (t : Fin cfg0.N) (h0 : ¬t.val % 44 = 0) (h1 : t.val % 44 = 43) (prev : Vec F S512x4096 .f32 × Vec F S512x4096 .bf16 × Vec F S512x256 .bf16) : Vec F S512x4096 .f32 × Vec F S512x4096 .bf16 × Vec F S512x256 .bf16 :=
  (outLast5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) prev.1 prev.2.1 prev.2.2,
   prev.2.1,
   prev.2.2)

/-- The output block, the normalised rows and the gated block after the body at position `n`, by recursion on the
    position: the case the step number selects, over what position `n - 1` left. -/
def outsAt (c : Dev nD) : (n : ℕ) → n < cfg0.N → Vec F S512x4096 .f32 × Vec F S512x4096 .bf16 × Vec F S512x256 .bf16
  | 0, hn => firstOuts m c ⟨0, hn⟩ (Nat.zero_mod _)
  | n + 1, hn =>
    if h0 : (n + 1) % 44 = 0 then firstOuts m c ⟨n + 1, hn⟩ h0
    else if h1 : (n + 1) % 44 = 43 then lastOuts m c ⟨n + 1, hn⟩ h0 h1 (outsAt c n (Nat.lt_of_succ_lt hn))
    else midOuts m c ⟨n + 1, hn⟩ h0 h1 (outsAt c n (Nat.lt_of_succ_lt hn))

theorem outsAt_first (c : Dev nD) (t : Fin cfg0.N) (h0 : t.val % 44 = 0) :
    outsAt m c t.val t.isLt = firstOuts m c t h0 := by
  obtain ⟨n, hn⟩ := t
  cases n with
  | zero => exact rfl
  | succ n => exact (dif_pos h0).trans rfl

theorem outsAt_mid (c : Dev nD) (t : Fin cfg0.N) (h0 : ¬t.val % 44 = 0) (h1 : ¬t.val % 44 = 43) :
    outsAt m c t.val t.isLt = midOuts m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 44 = 0) (h1 : t.val % 44 = 43) :
    outsAt m c t.val t.isLt = lastOuts m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before position `n`: before the first point the two scratch buffers at anything; afterwards at what the point
    before left in them; the generator register at some state throughout. -/
def PhiS (c : Dev nD) : (n : ℕ) → n ≤ cfg0.N → sProp 𝕄
  | 0, _ => Pipeline.ΦA spec0 c
  | n + 1, hn => iprop(iprop(owns (c : Thread nD τ) scX fullShare ((outsAt m c n hn).2.1) ∗ owns (c : Thread nD τ) scG fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scX fullShare ((outsAt m c n hn).2.1) ∗ owns (c : Thread nD τ) scG fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scX fullShare ((outsAt m c (n - 1) (by omega)).2.1) ∗ owns (c : Thread nD τ) scG fullShare ((outsAt m c (n - 1) (by omega)).2.2)) ∗ (∃ r, prngReg c r)) := by
  cases n with
  | zero => exact absurd rfl hz
  | succ n => rfl

/-! ## The proof data -/

/-- The arrays as the region finds them; after the body at point `t` each input's buffer at its block and the
    output's at `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At a first step the output's current staging buffer is fresh (the first point, or the point after a write-back):
    it holds anything. -/
theorem before5_first (c : Dev nD) (t : Fin cfg0.N) (h0 : t.val % 44 = 0) (d) : (dats m 0 c).before 5 t d = d := by
  have hN : t.val < 176 := lt_of_lt_of_eq t.isLt (show cfg0.N = 176 from N_0)
  refine Dat.before_out_reset _ 5 rfl t ?_ d
  by_cases hz : t.val = 0
  · exact .inl hz
  · exact .inr ⟨hz, (flush0_5 _).mpr (by dsimp only; omega)⟩

/-- At any other step it holds what the body left at the point before: the block was not written back between. -/
theorem before5_later (c : Dev nD) (t : Fin cfg0.N) (h0 : ¬t.val % 44 = 0) (d) :
    (dats m 0 c).before 5 t d = (outsAt m c (t.val - 1) (Nat.lt_of_le_of_lt (Nat.sub_le _ _) t.isLt)).1 := by
  have hN : t.val < 176 := lt_of_lt_of_eq t.isLt (show cfg0.N = 176 from N_0)
  rw [Dat.before_out_kept _ 5 rfl t (by omega) (Bool.eq_false_iff.mpr fun h => by have := (flush0_5 _).mp h; dsimp only at this; omega)
    live5_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' buffers hold their blocks; the step number says which case the point is in;
    the output block holds anything at a first step and what the point before left otherwise; the invariant hands the
    body the scratch buffers at what the point before left and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 44 = 0
  · simp only [before5_first m c t h0]
    rw [outsAt_first m c t h0]
    unfold firstOuts outFirst5 outFirstX outFirstG; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
          unfold owns; iexists _; isplitr
          swap; · iexact HS1
          ipureintro; exact View.read_writes_of_cover _ _ _ _ _ (coverFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstX c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
          unfold owns; iexists _; isplitr
          swap; · iexact HS1
          ipureintro; exact View.read_writes_of_cover _ _ _ _ _ (coverFirstG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverFirst5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
  · have hz : t.val ≠ 0 := fun h => h0 (by rw [h])
    simp only [before5_later m c t h0]
    rw [PhiS_castSucc m c t, PhiS_pos m c _ _ hz]
    by_cases h1 : t.val % 44 = 43
    · rw [outsAt_last m c t h0 h1]
      unfold lastOuts outLast5; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) _ _ _)
    · rw [outsAt_mid m c t h0 h1]
      unfold midOuts outMid5 outMidG; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (coverMidG c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverMid5 c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 176 := N_0; omega)

/-! ## The run and the frame -/

set_option backward.isDefEq.respectTransparency.types false in
/-- From any memory with zero counters every weakly fair execution of the program terminates, and every final state
    has every array of the pipeline at what the library computes from the proof data and every other unscoped buffer as
    the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KernPieces.lean ====
/-
  What each case of the kernel body leaves in the output block and the two scratch buffers, as the body's
  arithmetic applied to what the case reads.

  The body loads and stores whole buffers only, so each buffer ends at the value of the last store into it, and a
  load that follows a store of the same buffer reads that store's value. First step: the output block is the tile
  itself, the first scratch the tile's rows normalised, the gated scratch the gated product of those normalised rows
  with the step's gate/up block. Middle step: the output block is what it held plus the gated scratch times the
  step's down block; the gated scratch is refilled from the first scratch and the step's gate/up block. Last step:
  the output block is that same sum, normalised.
-/
import proofs.«103741_g2000106300617579_pallasbulk_765_8_alg».proof.Proof.BodyKernelIdealFrame
import Idealize.ShloMosaic.Lib.Pipeline.Value

set_option maxRecDepth 16384

noncomputable section

namespace Cert.KernelIdeal.KernValue

open Idealize.ShloMosaic Idealize.ShloMosaic.TcCoe Idealize.ShloMosaic.Tactic Idealize.SL.Sem
open Cert.KernelIdeal Cert.KernelIdeal.Gen Cert.KernelIdeal.Body

variable {F : FTy → Type} [FloatOps F]

/-- The zero offsets of a rank-2 rectangle, as the constant function. -/
theorem hz : (![0, 0] : Fin 2 → Nat) = fun _ => 0 := funext fun a => by fin_cases a <;> rfl

/-- First step, output block: the tile itself. -/
theorem outFirst5_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) :
    outFirst5 c i arg2 harg2 arg3 harg3 arg4 harg4 arg5 harg5 arg6 harg6 arg7 harg7 arg8 harg8 arg9 harg9 hc1 hc2 hc3 hc4 x0 x1 x2 x3 x4 = k0_pay1 x0 := by
  unfold outFirst5
  rw [View.read_writes_eq_canon _ _ _ (coverFirst5 c i arg2 harg2 arg3 harg3 arg4 harg4 arg5 harg5 arg6 harg6 arg7 harg7 arg8 harg8 arg9 harg9 hc1 hc2 hc3 hc4 x0 x1 x2 x3 x4)]
  unfold runFirst
  dsimp only
  try sl_unfold_words
  rw [View.canon_unit_zero hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

/-- First step, first scratch: the tile's rows normalised and scaled by the first norm's weights. -/
theorem outFirstX_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) :
    outFirstX c i arg2 harg2 arg3 harg3 arg4 harg4 arg5 harg5 arg6 harg6 arg7 harg7 arg8 harg8 arg9 harg9 hc1 hc2 hc3 hc4 x0 x1 x2 x3 x4 = k0_pay2 x0 x1 := by
  unfold outFirstX
  rw [View.read_writes_eq_canon _ _ _ (coverFirstX c i arg2 harg2 arg3 harg3 arg4 harg4 arg5 harg5 arg6 harg6 arg7 harg7 arg8 harg8 arg9 harg9 hc1 hc2 hc3 hc4 x0 x1 x2 x3 x4)]
  unfold runFirst
  dsimp only
  try sl_unfold_words
  rw [View.canon_unit_zero hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

/-- First step, gated scratch: the gated product of the rows just normalised with the step's gate/up block. -/
theorem outFirstG_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : isFirst i) (hc2 : ¬isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) :
    outFirstG c i arg2 harg2 arg3 harg3 arg4 harg4 arg5 harg5 arg6 harg6 arg7 harg7 arg8 harg8 arg9 harg9 hc1 hc2 hc3 hc4 x0 x1 x2 x3 x4 = k0_pay4 (k0_pay2 x0 x1) x2 := by
  unfold outFirstG
  rw [View.read_writes_eq_canon _ _ _ (coverFirstG c i arg2 harg2 arg3 harg3 arg4 harg4 arg5 harg5 arg6 harg6 arg7 harg7 arg8 harg8 arg9 harg9 hc1 hc2 hc3 hc4 x0 x1 x2 x3 x4)]
  unfold runFirst
  dsimp only
  try sl_unfold_words
  rw [View.canon_unit_zero hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

/-- Middle step, output block: what it held plus the gated scratch times the step's down block. -/
theorem outMid5_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    outMid5 c i arg2 harg2 arg3 harg3 arg4 harg4 arg5 harg5 arg6 harg6 arg7 harg7 arg8 harg8 arg9 harg9 hc1 hc2 hc3 hc4 x0 x1 x2 x3 x4 xo xs0 xs1 = k0_pay3 xo xs1 x3 := by
  unfold outMid5
  rw [View.read_writes_eq_canon _ _ _ (coverMid5 c i arg2 harg2 arg3 harg3 arg4 harg4 arg5 harg5 arg6 harg6 arg7 harg7 arg8 harg8 arg9 harg9 hc1 hc2 hc3 hc4 x0 x1 x2 x3 x4 xo xs0 xs1)]
  unfold runMid
  dsimp only
  try sl_unfold_words
  rw [View.canon_unit_zero hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

/-- Middle step, gated scratch: the gated product of the normalised rows with the step's gate/up block. -/
theorem outMidG_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : hasGate i) (hc4 : ¬isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    outMidG c i arg2 harg2 arg3 harg3 arg4 harg4 arg5 harg5 arg6 harg6 arg7 harg7 arg8 harg8 arg9 harg9 hc1 hc2 hc3 hc4 x0 x1 x2 x3 x4 xo xs0 xs1 = k0_pay4 xs0 x2 := by
  unfold outMidG
  rw [View.read_writes_eq_canon _ _ _ (coverMidG c i arg2 harg2 arg3 harg3 arg4 harg4 arg5 harg5 arg6 harg6 arg7 harg7 arg8 harg8 arg9 harg9 hc1 hc2 hc3 hc4 x0 x1 x2 x3 x4 xo xs0 xs1)]
  unfold runMid
  dsimp only
  try sl_unfold_words
  rw [View.canon_unit_zero hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

/-- Last step, output block: the sum a middle step would leave, normalised and scaled by the second norm's weights. -/
theorem outLast5_eq (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (arg9 : Memref sig .tc .vmem S512x256 .bf16) (harg9 : arg9.IsWhole) (hc1 : ¬isFirst i) (hc2 : isLater i) (hc3 : ¬hasGate i) (hc4 : isLast i) (x0 : Vec F S512x4096 .f32) (x1 : Vec F S1x4096 .f32) (x2 : Vec F S4096x512 .bf16) (x3 : Vec F S256x4096 .bf16) (x4 : Vec F S1x4096 .f32) (xo : Vec F S512x4096 .f32) (xs0 : Vec F S512x4096 .bf16) (xs1 : Vec F S512x256 .bf16) :
    outLast5 c i arg2 harg2 arg3 harg3 arg4 harg4 arg5 harg5 arg6 harg6 arg7 harg7 arg8 harg8 arg9 harg9 hc1 hc2 hc3 hc4 x0 x1 x2 x3 x4 xo xs0 xs1 = k0_pay5 (k0_pay3 xo xs1 x3) x4 := by
  unfold outLast5
  rw [View.read_writes_eq_canon _ _ _ (coverLast5 c i arg2 harg2 arg3 harg3 arg4 harg4 arg5 harg5 arg6 harg6 arg7 harg7 arg8 harg8 arg9 harg9 hc1 hc2 hc3 hc4 x0 x1 x2 x3 x4 xo xs0 xs1)]
  unfold runLast
  dsimp only
  try sl_unfold_words
  rw [View.canon_cons_unit_zero (S := S512x4096) hz]
  simp only [View.readCov_unit_zero (S := S512x4096) _ hz, View.readCov_unit_zero (S := S512x256) _ hz, View.readAt_eq_ld, harg2.read_unread, harg3.read_unread, harg4.read_unread, harg5.read_unread, harg6.read_unread, harg7.read_unread, harg8.read_unread, harg9.read_unread, View.ld_unit_zero (S := S512x4096) hz, View.ld_unit_zero (S := S1x4096) hz, View.ld_unit_zero (S := S4096x512) hz, View.ld_unit_zero (S := S256x4096) hz, View.ld_unit_zero (S := S512x256) hz]

end Cert.KernelIdeal.KernValue

end
-- ==== Proof.FfnSpec.lean ====
/-
  The function both programs compute, one token row at a time, on the extended reals.

  For a token row `h` of 4096 entries: `x = h · rsqrt(mean(h²) + ε) · fnw` (the first RMS norm; the mean is the sum
  times 1/4096); for each hidden block `k < 43`: `u = x · W13[:, 512k … 512k+512)`, `g = (u₁ · σ(u₁)) · u₂` with
  `u₁`, `u₂` the two halves of `u` (σ the logistic function), `a_k = g · W2[256k … 256k+256, :]`; then
  `y = h + Σ_k a_k` and the result row is `y · rsqrt(mean(y²) + ε) · anw`.

  The two programs bracket the sum `y` differently: `((h + a₀) + a₁) + …` against `h + (((0 + a₀) + a₁) + …)`.
  Addition on the extended reals is associative with unit `0`, so the two agree, with no finiteness assumed. Every
  other operation is applied in the same order by both, so nothing else is rearranged.
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx

/-- The value of the word the programs multiply a row's sum of squares by (the binary fraction 1/4096). -/
def invDim : EReal := Ideal.ofBits .f32 0x39800000#32
/-- The value of the word added under the reciprocal square root. -/
def eps : EReal := Ideal.ofBits .f32 0x358637BD#32

/-- A row divided by its root mean square (with `eps` under the root) and scaled entry by entry by a weight row. -/
def normRow (h w : Fin 4096 → EReal) : Fin 4096 → EReal :=
  fun j => (h j * Ideal.rsqrt ((∑ k : Fin 4096, h k * h k) * invDim + eps)) * w j

/-- A row times a 4096 × 512 block of the gate/up weights. -/
def upRow (x : Fin 4096 → EReal) (w : Fin 4096 → Fin 512 → EReal) : Fin 512 → EReal :=
  fun q => ∑ k : Fin 4096, x k * w k q

/-- The gated product of the two halves of a 512-entry row: `(u₁ · σ(u₁)) · u₂`. -/
def gateRow (u : Fin 512 → EReal) : Fin 256 → EReal :=
  fun p => (u ⟨p.val, by have := p.isLt; omega⟩ * Ideal.logistic (u ⟨p.val, by have := p.isLt; omega⟩))
    * u ⟨256 + p.val, by have := p.isLt; omega⟩

/-- A 256-entry row times a 256 × 4096 block of the down weights. -/
def downRow (g : Fin 256 → EReal) (w : Fin 256 → Fin 4096 → EReal) : Fin 4096 → EReal :=
  fun j => ∑ p : Fin 256, g p * w p j

/-- Hidden block `k`'s contribution to a token row whose normalised form is `x` (zero from block 43 on: there are
    43 blocks). -/
def term (w13 : Fin 4096 → Fin 22016 → EReal) (w2 : Fin 11008 → Fin 4096 → EReal) (x : Fin 4096 → EReal) (k : ℕ) :
    Fin 4096 → EReal :=
  if hk : k < 43 then
    downRow (gateRow (upRow x fun a q => w13 a ⟨k * 512 + q.val, by have := q.isLt; omega⟩))
      (fun p j => w2 ⟨k * 256 + p.val, by have := p.isLt; omega⟩ j)
  else fun _ => 0

/-- The terms `a 0, a 1, …, a (n-1)` added one after the other onto a starting row `s`. -/
def accFrom (s : Fin 4096 → EReal) (a : ℕ → Fin 4096 → EReal) : ℕ → Fin 4096 → EReal
  | 0 => s
  | n + 1 => fun j => accFrom s a n j + a n j

theorem accFrom_zero (s : Fin 4096 → EReal) (a : ℕ → Fin 4096 → EReal) : accFrom s a 0 = s := rfl

theorem accFrom_succ (s : Fin 4096 → EReal) (a : ℕ → Fin 4096 → EReal) (n : ℕ) (j : Fin 4096) :
    accFrom s a (n + 1) j = accFrom s a n j + a n j := rfl

/-- Adding `h` to the terms accumulated from zero is accumulating them onto `h`: associativity of addition, and
    `0` its unit. -/
theorem add_accFrom_zero (h : Fin 4096 → EReal) (a : ℕ → Fin 4096 → EReal) (n : ℕ) (j : Fin 4096) :
    h j + accFrom (fun _ => 0) a n j = accFrom h a n j := by
  induction n with
  | zero => exact add_zero (h j)
  | succ n ih => rw [accFrom_succ, accFrom_succ, ← add_assoc, ih]

/-- The result row, the block sum accumulated onto the residual row. -/
def outRow (h fnw : Fin 4096 → EReal) (w13 : Fin 4096 → Fin 22016 → EReal) (w2 : Fin 11008 → Fin 4096 → EReal)
    (anw : Fin 4096 → EReal) : Fin 4096 → EReal :=
  normRow (accFrom h (term w13 w2 (normRow h fnw)) 43) anw

/-- The result row, the block sum accumulated from zero and the residual row added at the end. -/
def outRowRef (h fnw : Fin 4096 → EReal) (w13 : Fin 4096 → Fin 22016 → EReal) (w2 : Fin 11008 → Fin 4096 → EReal)
    (anw : Fin 4096 → EReal) : Fin 4096 → EReal :=
  normRow (fun j => h j + accFrom (fun _ => 0) (term w13 w2 (normRow h fnw)) 43 j) anw

theorem outRowRef_eq (h fnw : Fin 4096 → EReal) (w13 : Fin 4096 → Fin 22016 → EReal) (w2 : Fin 11008 → Fin 4096 → EReal)
    (anw : Fin 4096 → EReal) : outRowRef h fnw w13 w2 anw = outRow h fnw w13 w2 anw := by
  unfold outRowRef outRow
  exact congrArg (fun y => normRow y anw) (funext fun j => add_accFrom_zero _ _ _ j)

/-- The whole result array: entry (b, s, j) is entry j of the result row of token row (b, s). -/
def result (h : FVec Ideal ⟨3, ![4, 512, 4096]⟩ .f32) (fnw : FVec Ideal ⟨2, ![1, 4096]⟩ .f32)
    (w13 : FVec Ideal ⟨2, ![4096, 22016]⟩ .bf16) (w2 : FVec Ideal ⟨2, ![11008, 4096]⟩ .bf16)
    (anw : FVec Ideal ⟨2, ![1, 4096]⟩ .f32) : FVec Ideal ⟨3, ![4, 512, 4096]⟩ .f32 :=
  fun i => outRow (fun j => h (ix3 (i 0) (i 1) j)) (fun j => fnw (ix2 0 j)) (fun a q => w13 (ix2 a q))
    (fun p j => w2 (ix2 p j)) (fun j => anw (ix2 0 j)) (i 2)

/-- The same array with each row in the second bracketing. -/
def resultRef (h : FVec Ideal ⟨3, ![4, 512, 4096]⟩ .f32) (fnw : FVec Ideal ⟨2, ![1, 4096]⟩ .f32)
    (w13 : FVec Ideal ⟨2, ![4096, 22016]⟩ .bf16) (w2 : FVec Ideal ⟨2, ![11008, 4096]⟩ .bf16)
    (anw : FVec Ideal ⟨2, ![1, 4096]⟩ .f32) : FVec Ideal ⟨3, ![4, 512, 4096]⟩ .f32 :=
  fun i => outRowRef (fun j => h (ix3 (i 0) (i 1) j)) (fun j => fnw (ix2 0 j)) (fun a q => w13 (ix2 a q))
    (fun p j => w2 (ix2 p j)) (fun j => anw (ix2 0 j)) (i 2)

theorem resultRef_eq (h : FVec Ideal ⟨3, ![4, 512, 4096]⟩ .f32) (fnw : FVec Ideal ⟨2, ![1, 4096]⟩ .f32)
    (w13 : FVec Ideal ⟨2, ![4096, 22016]⟩ .bf16) (w2 : FVec Ideal ⟨2, ![11008, 4096]⟩ .bf16)
    (anw : FVec Ideal ⟨2, ![1, 4096]⟩ .f32) : resultRef h fnw w13 w2 anw = result h fnw w13 w2 anw :=
  funext fun i => congrFun (outRowRef_eq _ _ _ _ _) (i 2)

end Cert.Ffn

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KernRows.lean ====
/-
  The kernel body's five stored values, read one entry at a time on the extended reals.

  The body works on a block of 512 token rows. Its stored values are: the residual block unchanged; the block with
  every row divided by its root mean square and scaled by a weight row (twice: for the first and for the last
  normalisation); the block plus the product of a 512 × 256 gated block with a 256 × 4096 block of down weights;
  and the gated product of the two halves of the block times a 4096 × 512 block of gate/up weights. Each is a
  composition of entrywise operations with a few operations that move entries: a sum along the lanes, a vector
  viewed as a column, a column or a row repeated across the block, a matrix product into a zero accumulator, and
  the two column halves of a 512 × 512 array. Read at entry (r, j), each of the latter names one entry (or one
  finite sum of entries) of its operand; the entrywise operations are the extended reals' own, and the format
  changes and the casts to the same shape are identities. Nothing is rearranged and no sum is evaluated.
-/
import proofs.«103741_g2000106300617579_pallasbulk_765_8_alg».proof.Proof.Gen.KernelIdeal.Skeleton
import proofs.«103741_g2000106300617579_pallasbulk_765_8_alg».proof.Proof.FfnSpec
import proofs.«103741_g2000106300617579_pallasbulk_765_8_alg».proof.Proof.LibDense
import proofs.«103741_g2000106300617579_pallasbulk_765_8_alg».proof.Proof.LibAxisSum
import Idealize.ShloMosaic.Lib.ValueIdx
import Idealize.ShloMosaic.Lib.ValueLayout
import Idealize.ShloMosaic.Lib.Pipeline.Value

noncomputable section

namespace Cert.KernelIdeal.KernRows

open Idealize.ShloMosaic Idealize.ShloMosaic.ValueIdx Cert.KernelIdeal Cert.KernelIdeal.Gen Cert.Ffn

/-! ## A vector as a column, and a column repeated along the lanes -/

/-- A vector of 512 entries viewed as a 512 × 1 column reads, at (r, u), the vector at r: both entries sit at
    row-major position r. -/
theorem col_of_vec {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    omega)

/-- A 512 × 1 column repeated along 4096 lanes reads, at (r, j), the column at (r, 0). -/
theorem lanes_of_col {α : Type} (v : S512x1.Idx → α) (h : S512x1.Broadcasts S512x4096) (r : Fin 512) (j : Fin 4096) :
    broadcastTo S512x4096 v h (ix2 r j) = v (ix2 r (0 : Fin 1)) := by
  refine broadcastTo_apply v h (ix2 r j) (ix2 r (0 : Fin 1)) fun ax => ?_
  match ax with
  | ⟨0, _⟩ =>
    show r.val = if 512 = 1 then 0 else r.val
    exact (if_neg (by decide)).symm
  | ⟨1, _⟩ =>
    show 0 = if 1 = 1 then 0 else j.val
    exact (if_pos rfl).symm

/-! ## The residual block -/

/-- The first stored value is the loaded block itself: a cast to the same shape changes nothing. -/
theorem pay1_eq (v : Vec Ideal S512x4096 .f32) : k0_pay1 (F := Ideal) v = v :=
  shapeCast_self v _

/-! ## The root-mean-square scale and the two normalisations -/

/-- The scale column of a block, repeated along the lanes, at (r, j): the reciprocal root of row r's sum of squares
    times 1/4096 plus the small constant. The lane sum at row r is the finite sum over the row, the column view and
    the repetition each name one entry, and the two constants are the same at every entry. -/
theorem scale_apply (h : FVec Ideal S512x4096 .f32) (r : Fin 512) (j : Fin 4096) :
    broadcastTo S512x4096
      (rsqrt (addf (mulf (shapeCast S512x1 (multiReduction (F := Ideal) .add [1] S512 (mulf h h) 0x00000000#32 reduces_S512x4096_S512 (.inl rfl) rfl) shapeCasts_S512_S512x1)
        (broadcast S512x1 (Scalar.ofBits (F := Ideal) .f32 0x39800000#32)))
        (broadcast S512x1 (Scalar.ofBits (F := Ideal) .f32 0x358637BD#32))))
      broadcasts_S512x1_S512x4096 (ix2 r j)
    = Ideal.rsqrt ((∑ k : Fin 4096, h (ix2 r k) * h (ix2 r k)) * invDim + eps) := by
  refine (lanes_of_col _ _ r j).trans ?_
  exact congrArg (fun s => Ideal.rsqrt (s * invDim + eps))
    ((col_of_vec _ _ r 0).trans (Cert.LibAxisSum.sum_last (mulf h h) _ _ _ _ r))

/-- The first normalisation at (r, j): entry j of row r divided by the row's root mean square, times entry j of the
    weight row. The narrowing format change and the cast to the same shape are identities. -/
theorem pay2_apply (h : Vec Ideal S512x4096 .f32) (w : Vec Ideal S1x4096 .f32) (r : Fin 512) (j : Fin 4096) :
    k0_pay2 (F := Ideal) h w (ix2 r j) = normRow (fun k => h (ix2 r k)) (fun k => w (ix2 0 k)) j := by
  unfold k0_pay2
  rw [pay1_eq h, shapeCast_self]
  exact congrArg₂ (· * ·) (congrArg (h (ix2 r j) * ·) (scale_apply h r j)) (broadcastTo_1b_ab_apply w _ r j)

/-! ## The two matrix products and the halves of the gate/up product -/

/-- The product of a 512 × 4096 block with a 4096 × 512 weight block, into the zero accumulator, at (r, q): row r of
    the block times column q of the weights. -/
theorem up_apply (x : FVec Ideal S512x4096 .bf16) (w : FVec Ideal S4096x512 .bf16) (r : Fin 512) (q : Fin 512) :
    matmul dot_S512x4096_S4096x512_S512x512_1_0_0_1_n_n none x w (constant (F := Ideal) S512x512 .f32 0x00000000#32) (ix2 r q)
      = upRow (fun k => x (ix2 r k)) (fun a q => w (ix2 a q)) q :=
  Cert.LibDense.matmul_plain x w (ix2 r q)

/-- The product of a 512 × 256 block with a 256 × 4096 weight block, into the zero accumulator, at (r, j): row r of
    the block times column j of the weights. -/
theorem down_apply (g : FVec Ideal S512x256 .bf16) (w : FVec Ideal S256x4096 .bf16) (r : Fin 512) (j : Fin 4096) :
    matmul dot_S512x256_S256x4096_S512x4096_1_0_0_1_n_n none g w (constant (F := Ideal) S512x4096 .f32 0x00000000#32) (ix2 r j)
      = downRow (fun p => g (ix2 r p)) (fun p j => w (ix2 p j)) j :=
  Cert.LibDense.matmul_plain g w (ix2 r j)

/-- The left half of a 512 × 512 array, at (r, p), is the array at (r, p). -/
theorem lo_half {α : Type} (X : S512x512.Idx → α) (h : S512x512.Slices ![0, 0] S512x256) (r : Fin 512) (p : Fin 256) :
    extractStridedSlice S512x256 ![0, 0] X h (ix2 r p) = X (ix2 r (⟨p.val, by have := p.isLt; omega⟩ : Fin 512)) :=
  slice2_axis1_apply 0 X h r p _ (Nat.zero_add _).symm

/-- The right half of a 512 × 512 array, at (r, p), is the array at (r, 256 + p). -/
theorem hi_half {α : Type} (X : S512x512.Idx → α) (h : S512x512.Slices ![0, 256] S512x256) (r : Fin 512) (p : Fin 256) :
    extractStridedSlice S512x256 ![0, 256] X h (ix2 r p) = X (ix2 r (⟨256 + p.val, by have := p.isLt; omega⟩ : Fin 512)) :=
  slice2_axis1_apply 256 X h r p _ rfl

/-- The accumulation step at (r, j): the accumulated entry plus row r of the gated block times column j of the down
    weights. -/
theorem pay3_apply (o : Vec Ideal S512x4096 .f32) (g : Vec Ideal S512x256 .bf16) (w : Vec Ideal S256x4096 .bf16) (r : Fin 512) (j : Fin 4096) :
    k0_pay3 (F := Ideal) o g w (ix2 r j) = o (ix2 r j) + downRow (fun p => g (ix2 r p)) (fun p j => w (ix2 p j)) j := by
  unfold k0_pay3
  rw [shapeCast_self o]
  exact congrArg (o (ix2 r j) + ·) (down_apply g w r j)

/-- The gated block at (r, p): with u the product of row r with the 4096 × 512 weight block, entry p of u times its
    logistic value, times entry 256 + p of u. -/
theorem pay4_apply (x : Vec Ideal S512x4096 .bf16) (w : Vec Ideal S4096x512 .bf16) (r : Fin 512) (p : Fin 256) :
    k0_pay4 (F := Ideal) x w (ix2 r p) = gateRow (upRow (fun k => x (ix2 r k)) (fun a q => w (ix2 a q))) p := by
  unfold k0_pay4
  rw [shapeCast_self]
  have e1 := (lo_half _ slices_S512x512_o0_0_S512x256 r p).trans (up_apply x w r _)
  have e2 := (hi_half _ slices_S512x512_o0_256_S512x256 r p).trans (up_apply x w r _)
  exact congrArg₂ (· * ·) (congrArg₂ (fun a b => a * Ideal.logistic b) e1 e1) e2

/-- The last normalisation at (r, j): the same function of the accumulated block and the second weight row. -/
theorem pay5_apply (y : Vec Ideal S512x4096 .f32) (w : Vec Ideal S1x4096 .f32) (r : Fin 512) (j : Fin 4096) :
    k0_pay5 (F := Ideal) y w (ix2 r j) = normRow (fun k => y (ix2 r k)) (fun k => w (ix2 0 k)) j := by
  unfold k0_pay5
  rw [shapeCast_self y]
  exact congrArg₂ (· * ·) (congrArg (y (ix2 r j) * ·) (scale_apply y r j)) (broadcastTo_1b_ab_apply w _ r j)

end Cert.KernelIdeal.KernRows

end
-- ==== Proof.KernInduct.lean ====
/-
  What the kernel's three buffers hold after every grid point, as the row functions of the specification.

  Write a point as tile `a` and step `k` (position `44·a + k`), `h_r` for row `512·a + r` of the token array, and
  `x_r` for its normalised form. After the point, for every row `r` of the tile: the first scratch holds `x_r`; the
  gated scratch holds the gated product of `x_r` with gate/up block `k` (while `k < 43`); and the output block holds
  `h_r` with the contributions of the hidden blocks `0 … k-1` added one after the other — at step 43 that sum
  normalised, which is the result row. By induction on the position: step 0 seeds all three from the tile; a middle
  step adds block `k-1`'s contribution (the gated scratch, one step behind, times down block `k-1`) and refills the
  gated scratch with block `k`; the last step adds block 42's contribution and normalises.
-/
import proofs.«103741_g2000106300617579_pallasbulk_765_8_alg».proof.Proof.KernPieces
import proofs.«103741_g2000106300617579_pallasbulk_765_8_alg».proof.Proof.KernRows
import proofs.«103741_g2000106300617579_pallasbulk_765_8_alg».proof.Proof.FfnSpec

set_option maxRecDepth 16384

noncomputable section

namespace Cert.KernelIdeal.KernValue

open Idealize.ShloMosaic Idealize.ShloMosaic.TcCoe Idealize.SL.Sem Idealize.ShloMosaic.ValueIdx
open Cert.KernelIdeal Cert.KernelIdeal.Gen Cert.KernelIdeal.Body Cert.KernelIdeal.KernRows Cert.Ffn

variable (m : (ℓ : Loc nD τ sig) → Buf (Elt Ideal) ℓ)

/-! ## The argument arrays as the region finds them, by rows -/

/-- Row `r` of tile `a` of the token array (zero past the array's last row: no tile reaches there). -/
def tileRow (c : Dev nD) (a : ℕ) (r : Fin 512) : Fin 4096 → EReal :=
  fun j => if h : a * 512 + r.val < 2048 then (V m c main_v0 : S2048x4096.Idx → EReal) (ix2 ⟨a * 512 + r.val, h⟩ j) else 0
/-- The first norm's weight row. -/
def fnwRow (c : Dev nD) : Fin 4096 → EReal := fun j => (V m c main_arg1 : S1x4096.Idx → EReal) (ix2 0 j)
/-- The gate/up weights. -/
def w13Mat (c : Dev nD) : Fin 4096 → Fin 22016 → EReal := fun a q => (V m c main_arg2 : S4096x22016.Idx → EReal) (ix2 a q)
/-- The down weights. -/
def w2Mat (c : Dev nD) : Fin 11008 → Fin 4096 → EReal := fun p j => (V m c main_arg3 : S11008x4096.Idx → EReal) (ix2 p j)
/-- The second norm's weight row. -/
def anwRow (c : Dev nD) : Fin 4096 → EReal := fun j => (V m c main_arg4 : S1x4096.Idx → EReal) (ix2 0 j)

/-- A row normalised by the first norm. -/
def xRow (c : Dev nD) (a : ℕ) (r : Fin 512) : Fin 4096 → EReal := normRow (tileRow m c a r) (fnwRow m c)

/-- The gated product of a normalised row with gate/up block `k`. -/
def gatedRow (w13 : Fin 4096 → Fin 22016 → EReal) (x : Fin 4096 → EReal) (k : ℕ) (hk : k < 43) : Fin 256 → EReal :=
  gateRow (upRow x fun a q => w13 a ⟨k * 512 + q.val, by have := q.isLt; omega⟩)

/-- Hidden block `k`'s contribution is the gated row times down block `k`. -/
theorem term_eq (w13 : Fin 4096 → Fin 22016 → EReal) (w2 : Fin 11008 → Fin 4096 → EReal) (x : Fin 4096 → EReal) (k : ℕ) (hk : k < 43) :
    term w13 w2 x k = downRow (gatedRow w13 x k hk) (fun p j => w2 ⟨k * 256 + p.val, by have := p.isLt; omega⟩ j) := by
  unfold term gatedRow
  rw [dif_pos hk]

/-! ## The blocks a point is handed, read off the arrays -/

/-- The printed index maps over the grid: tile `t / 44` of the tokens and of the output, gate/up block
    `min (t % 44) 42`, down block `t % 44 - 1`, the two weight rows whole. -/
theorem idx_facts : ∀ t : Fin cfg0.N,
    win0_0.index t (0 : Fin 2) = t.val / 44 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = min (t.val % 44) 42
    ∧ win0_3.index t (0 : Fin 2) = t.val % 44 - 1 ∧ win0_3.index t (1 : Fin 2) = 0
    ∧ win0_4.index t (0 : Fin 2) = 0 ∧ win0_4.index t (1 : Fin 2) = 0
    ∧ win0_5.index t (0 : Fin 2) = t.val / 44 ∧ win0_5.index t (1 : Fin 2) = 0 :=
  (by decide +kernel : ∀ t : Fin grid0.N, _)

theorem blk0 (c : Dev nD) (t : Fin cfg0.N) (r : Fin 512) (j : Fin 4096) :
    (iblk m c 0 t : S512x4096.Idx → EReal) (ix2 r j) = tileRow m c (t.val / 44) r j := by
  have hN : t.val < 176 := lt_of_lt_of_eq t.isLt (show cfg0.N = 176 from N_0)
  obtain ⟨e0, e1, -⟩ := idx_facts t
  have hb : t.val / 44 * 512 + r.val < 2048 := by have := r.isLt; omega
  unfold tileRow
  rw [dif_pos hb]
  show (V m c main_v0 : S2048x4096.Idx → EReal) (((cfg0.win 0).blk t).view.emb (ix2 r j)) = _
  refine congrArg (V m c main_v0 : S2048x4096.Idx → EReal) (funext fun a => Fin.ext ?_)
  match a with
  | ⟨0, _⟩ => show win0_0.index t (0 : Fin 2) * 512 + 1 * r.val = t.val / 44 * 512 + r.val; omega
  | ⟨1, _⟩ => show win0_0.index t (1 : Fin 2) * 4096 + 1 * j.val = j.val; omega

theorem blk1 (c : Dev nD) (t : Fin cfg0.N) (j : Fin 4096) :
    (iblk m c 1 t : S1x4096.Idx → EReal) (ix2 0 j) = fnwRow m c j := by
  obtain ⟨-, -, e0, e1, -⟩ := idx_facts t
  unfold fnwRow
  show (V m c main_arg1 : S1x4096.Idx → EReal) (((cfg0.win 1).blk t).view.emb (ix2 0 j)) = _
  refine congrArg (V m c main_arg1 : S1x4096.Idx → EReal) (funext fun a => Fin.ext ?_)
  match a with
  | ⟨0, _⟩ => show win0_1.index t (0 : Fin 2) * 1 + 1 * 0 = 0; omega
  | ⟨1, _⟩ => show win0_1.index t (1 : Fin 2) * 4096 + 1 * j.val = j.val; omega

theorem blk2 (c : Dev nD) (t : Fin cfg0.N) (k : ℕ) (hk : k < 43) (hkt : t.val % 44 = k) (a : Fin 4096) (q : Fin 512) :
    (iblk m c 2 t : S4096x512.Idx → EReal) (ix2 a q) = w13Mat m c a ⟨k * 512 + q.val, by have := q.isLt; omega⟩ := by
  obtain ⟨-, -, -, -, e0, e1, -⟩ := idx_facts t
  unfold w13Mat
  show (V m c main_arg2 : S4096x22016.Idx → EReal) (((cfg0.win 2).blk t).view.emb (ix2 a q)) = _
  refine congrArg (V m c main_arg2 : S4096x22016.Idx → EReal) (funext fun b => Fin.ext ?_)
  match b with
  | ⟨0, _⟩ => show win0_2.index t (0 : Fin 2) * 4096 + 1 * a.val = a.val; omega
  | ⟨1, _⟩ => show win0_2.index t (1 : Fin 2) * 512 + 1 * q.val = k * 512 + q.val; omega

theorem blk3 (c : Dev nD) (t : Fin cfg0.N) (k : ℕ) (hk : k < 43) (hkt : t.val % 44 = k + 1) (p : Fin 256) (j : Fin 4096) :
    (iblk m c 3 t : S256x4096.Idx → EReal) (ix2 p j) = w2Mat m c ⟨k * 256 + p.val, by have := p.isLt; omega⟩ j := by
  obtain ⟨-, -, -, -, -, -, e0, e1, -⟩ := idx_facts t
  unfold w2Mat
  show (V m c main_arg3 : S11008x4096.Idx → EReal) (((cfg0.win 3).blk t).view.emb (ix2 p j)) = _
  refine congrArg (V m c main_arg3 : S11008x4096.Idx → EReal) (funext fun b => Fin.ext ?_)
  match b with
  | ⟨0, _⟩ => show win0_3.index t (0 : Fin 2) * 256 + 1 * p.val = k * 256 + p.val; omega
  | ⟨1, _⟩ => show win0_3.index t (1 : Fin 2) * 4096 + 1 * j.val = j.val; omega

theorem blk4 (c : Dev nD) (t : Fin cfg0.N) (j : Fin 4096) :
    (iblk m c 4 t : S1x4096.Idx → EReal) (ix2 0 j) = anwRow m c j := by
  obtain ⟨-, -, -, -, -, -, -, -, e0, e1, -⟩ := idx_facts t
  unfold anwRow
  show (V m c main_arg4 : S1x4096.Idx → EReal) (((cfg0.win 4).blk t).view.emb (ix2 0 j)) = _
  refine congrArg (V m c main_arg4 : S1x4096.Idx → EReal) (funext fun a => Fin.ext ?_)
  match a with
  | ⟨0, _⟩ => show win0_4.index t (0 : Fin 2) * 1 + 1 * 0 = 0; omega
  | ⟨1, _⟩ => show win0_4.index t (1 : Fin 2) * 4096 + 1 * j.val = j.val; omega

/-! ## One step of each kind, over any buffers with the stated rows -/

/-- The contribution of block `k` added to a row accumulated up to `k` is the row accumulated up to `k + 1`: the
    gated scratch holds block `k`'s gated row and the step is handed down block `k`. -/
theorem acc_step (w13 : Fin 4096 → Fin 22016 → EReal) (w2 : Fin 11008 → Fin 4096 → EReal) (h x : Fin 4096 → EReal)
    (k : ℕ) (hk : k < 43) (o : Vec Ideal S512x4096 .f32) (g : Vec Ideal S512x256 .bf16) (b3 : Vec Ideal S256x4096 .bf16)
    (r : Fin 512)
    (ho : ∀ j, o (ix2 r j) = accFrom h (term w13 w2 x) k j)
    (hg : ∀ p, g (ix2 r p) = gatedRow w13 x k hk p)
    (hb : ∀ p j, b3 (ix2 p j) = w2 ⟨k * 256 + p.val, by have := p.isLt; omega⟩ j) (j : Fin 4096) :
    k0_pay3 (F := Ideal) o g b3 (ix2 r j) = accFrom h (term w13 w2 x) (k + 1) j := by
  rw [pay3_apply o g b3 r j, accFrom_succ, term_eq w13 w2 x k hk, ho j]
  refine congrArg (accFrom h (term w13 w2 x) k j + ·) ?_
  unfold downRow
  exact Finset.sum_congr rfl fun p _ => by dsimp only; rw [hg p, hb p j]

/-- The gated scratch refilled at a step handed gate/up block `k`. -/
theorem gate_step (w13 : Fin 4096 → Fin 22016 → EReal) (x : Fin 4096 → EReal) (k : ℕ) (hk : k < 43)
    (xs : Vec Ideal S512x4096 .bf16) (b2 : Vec Ideal S4096x512 .bf16) (r : Fin 512)
    (hx : ∀ j, xs (ix2 r j) = x j)
    (hb : ∀ a q, b2 (ix2 a q) = w13 a ⟨k * 512 + q.val, by have := q.isLt; omega⟩) (p : Fin 256) :
    k0_pay4 (F := Ideal) xs b2 (ix2 r p) = gatedRow w13 x k hk p := by
  rw [pay4_apply xs b2 r p]
  unfold gatedRow
  refine congrFun (congrArg gateRow ?_) p
  unfold upRow
  exact funext fun q => Finset.sum_congr rfl fun a _ => by dsimp only; rw [hx a, hb a q]

/-- A normalisation whose input rows and weight row are the stated ones. -/
theorem norm_step2 (hrow w : Fin 4096 → EReal) (b0 : Vec Ideal S512x4096 .f32) (b1 : Vec Ideal S1x4096 .f32) (r : Fin 512)
    (h0 : ∀ j, b0 (ix2 r j) = hrow j) (h1 : ∀ j, b1 (ix2 0 j) = w j) (j : Fin 4096) :
    k0_pay2 (F := Ideal) b0 b1 (ix2 r j) = normRow hrow w j := by
  rw [pay2_apply b0 b1 r j, show (fun k => b0 (ix2 r k)) = hrow from funext h0, show (fun k => b1 (ix2 0 k)) = w from funext h1]

theorem norm_step5 (yrow w : Fin 4096 → EReal) (y : Vec Ideal S512x4096 .f32) (b4 : Vec Ideal S1x4096 .f32) (r : Fin 512)
    (h0 : ∀ j, y (ix2 r j) = yrow j) (h1 : ∀ j, b4 (ix2 0 j) = w j) (j : Fin 4096) :
    k0_pay5 (F := Ideal) y b4 (ix2 r j) = normRow yrow w j := by
  rw [pay5_apply y b4 r j, show (fun k => y (ix2 r k)) = yrow from funext h0, show (fun k => b4 (ix2 0 k)) = w from funext h1]

/-! ## The invariant -/

/-- What the three buffers hold after position `n` (tile `n / 44`, step `n % 44`), row by row. -/
structure Inv (c : Dev nD) (n : ℕ) (hn : n < cfg0.N) : Prop where
  xs : ∀ (r : Fin 512) (j : Fin 4096), ((outsAt m c n hn).2.1 : S512x4096.Idx → EReal) (ix2 r j) = xRow m c (n / 44) r j
  acc : ∀ (r : Fin 512) (j : Fin 4096), n % 44 ≠ 43 →
    ((outsAt m c n hn).1 : S512x4096.Idx → EReal) (ix2 r j)
      = accFrom (tileRow m c (n / 44) r) (term (w13Mat m c) (w2Mat m c) (xRow m c (n / 44) r)) (n % 44) j
  out : ∀ (r : Fin 512) (j : Fin 4096), n % 44 = 43 →
    ((outsAt m c n hn).1 : S512x4096.Idx → EReal) (ix2 r j)
      = outRow (tileRow m c (n / 44) r) (fnwRow m c) (w13Mat m c) (w2Mat m c) (anwRow m c) j
  gs : ∀ (hk : n % 44 < 43) (r : Fin 512) (p : Fin 256),
    ((outsAt m c n hn).2.2 : S512x256.Idx → EReal) (ix2 r p) = gatedRow (w13Mat m c) (xRow m c (n / 44) r) (n % 44) hk p

/-! ## The three buffers after a step of each kind, as the body's arithmetic of the step's blocks -/

theorem firstOuts_eq (c : Dev nD) (t : Fin cfg0.N) (h0 : t.val % 44 = 0) :
    firstOuts m c t h0 = (k0_pay1 (iblk m c 0 t), k0_pay2 (iblk m c 0 t) (iblk m c 1 t), k0_pay4 (k0_pay2 (iblk m c 0 t) (iblk m c 1 t)) (iblk m c 2 t)) := by
  unfold firstOuts
  exact congrArg₂ Prod.mk (outFirst5_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
    (congrArg₂ Prod.mk (outFirstX_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t))
      (outFirstG_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) ((isFirst_iff t).mpr h0) (fun h => (isLater_iff t).mp h h0) ((hasGate_iff t).mpr (fun h => by omega)) (fun h => by have := (isLast_iff t).mp h; omega) (iblk m c 0 t) (iblk m c 1 t) (iblk m c 2 t) (iblk m c 3 t) (iblk m c 4 t)))

theorem midOuts_eq (c : Dev nD) (t : Fin cfg0.N) (h0 : ¬t.val % 44 = 0) (h1 : ¬t.val % 44 = 43)
    (prev : Vec Ideal S512x4096 .f32 × Vec Ideal S512x4096 .bf16 × Vec Ideal S512x256 .bf16) :
    midOuts m c t h0 h1 prev = (k0_pay3 prev.1 prev.2.2 (iblk m c 3 t), prev.2.1, k0_pay4 prev.2.1 (iblk m c 2 t)) := by
  unfold midOuts
  exact congrArg₂ Prod.mk (outMid5_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2)
    (congrArg₂ Prod.mk rfl (outMidG_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) ((hasGate_iff t).mpr h1) (fun h => h1 ((isLast_iff t).mp h)) (iblk m c 0 t) (iblk m c 1 t) (iblk m c 2 t) (iblk m c 3 t) (iblk m c 4 t) prev.1 prev.2.1 prev.2.2))

theorem lastOuts_eq (c : Dev nD) (t : Fin cfg0.N) (h0 : ¬t.val % 44 = 0) (h1 : t.val % 44 = 43)
    (prev : Vec Ideal S512x4096 .f32 × Vec Ideal S512x4096 .bf16 × Vec Ideal S512x256 .bf16) :
    lastOuts m c t h0 h1 prev = (k0_pay5 (k0_pay3 prev.1 prev.2.2 (iblk m c 3 t)) (iblk m c 4 t), prev.2.1, prev.2.2) := by
  unfold lastOuts
  exact congrArg₂ Prod.mk (outLast5_eq c (grid0.coords t) (ms0 t) (hs0 t) (ms1 t) (hs1 t) (ms2 t) (hs2 t) (ms3 t) (hs3 t) (ms4 t) (hs4 t) (ms5 t) (hs5 t) scX (Memref.isWhole_whole _) scG (Memref.isWhole_whole _) (fun h => h0 ((isFirst_iff t).mp h)) ((isLater_iff t).mpr h0) (fun h => (hasGate_iff t).mp h h1) ((isLast_iff t).mpr h1) (iblk m c 0 t) (iblk m c 1 t) (iblk m c 2 t) (iblk m c 3 t) (iblk m c 4 t) prev.1 prev.2.1 prev.2.2) rfl

/-- After a first step. -/
theorem inv_first (c : Dev nD) (t : Fin cfg0.N) (h0 : t.val % 44 = 0) : Inv m c t.val t.isLt := by
  have e := (outsAt_first m c t h0).trans (firstOuts_eq m c t h0)
  have hx : ∀ (r : Fin 512) (j : Fin 4096), k0_pay2 (F := Ideal) (iblk m c 0 t) (iblk m c 1 t) (ix2 r j) = xRow m c (t.val / 44) r j :=
    fun r j => norm_step2 (tileRow m c (t.val / 44) r) (fnwRow m c) (iblk m c 0 t) (iblk m c 1 t) r (blk0 m c t r) (blk1 m c t) j
  refine ⟨?_, ?_, ?_, ?_⟩
  · intro r j; rw [e]; exact hx r j
  · intro r j _
    rw [e, h0]
    show k0_pay1 (F := Ideal) (iblk m c 0 t) (ix2 r j) = _
    rw [pay1_eq]
    exact blk0 m c t r j
  · intro r j h; omega
  · intro hk r p
    rw [e]
    exact gate_step (w13Mat m c) (xRow m c (t.val / 44) r) (t.val % 44) hk (k0_pay2 (F := Ideal) (iblk m c 0 t) (iblk m c 1 t)) (iblk m c 2 t) r
      (hx r) (fun a q => blk2 m c t (t.val % 44) hk rfl a q) p

/-- After a middle step, from the invariant after the point before. -/
theorem inv_mid (c : Dev nD) (t : Fin cfg0.N) (h0 : ¬t.val % 44 = 0) (h1 : ¬t.val % 44 = 43)
    (ih : Inv m c (t.val - 1) (Nat.lt_of_le_of_lt (Nat.sub_le _ _) t.isLt)) : Inv m c t.val t.isLt := by
  have e := (outsAt_mid m c t h0 h1).trans (midOuts_eq m c t h0 h1 _)
  have hd : (t.val - 1) / 44 = t.val / 44 := by omega
  have hk' : (t.val - 1) % 44 < 43 := by omega
  have hs : t.val % 44 = (t.val - 1) % 44 + 1 := by omega
  refine ⟨?_, ?_, ?_, ?_⟩
  · intro r j; rw [e]
    show ((outsAt m c (t.val - 1) (Nat.lt_of_le_of_lt (Nat.sub_le _ _) t.isLt)).2.1 : S512x4096.Idx → EReal) (ix2 r j) = _
    rw [ih.xs r j, hd]
  · intro r j _
    rw [e, hs]
    refine acc_step (w13Mat m c) (w2Mat m c) (tileRow m c (t.val / 44) r) (xRow m c (t.val / 44) r) ((t.val - 1) % 44) hk' (outsAt m c (t.val - 1) (Nat.lt_of_le_of_lt (Nat.sub_le _ _) t.isLt)).1 (outsAt m c (t.val - 1) (Nat.lt_of_le_of_lt (Nat.sub_le _ _) t.isLt)).2.2 (iblk m c 3 t) r ?_ ?_ ?_ j
    · intro j'; rw [ih.acc r j' (by omega), hd]
    · intro p; rw [ih.gs hk' r p, hd]
    · intro p j'; exact blk3 m c t ((t.val - 1) % 44) hk' hs p j'
  · intro r j h; exact absurd h h1
  · intro hk2 r p
    rw [e]
    refine gate_step (w13Mat m c) (xRow m c (t.val / 44) r) (t.val % 44) hk2 (outsAt m c (t.val - 1) (Nat.lt_of_le_of_lt (Nat.sub_le _ _) t.isLt)).2.1 (iblk m c 2 t) r ?_ ?_ p
    · intro j; rw [ih.xs r j, hd]
    · intro a q; exact blk2 m c t (t.val % 44) hk2 rfl a q

/-- After a last step, from the invariant after the point before. -/
theorem inv_last (c : Dev nD) (t : Fin cfg0.N) (h0 : ¬t.val % 44 = 0) (h1 : t.val % 44 = 43)
    (ih : Inv m c (t.val - 1) (Nat.lt_of_le_of_lt (Nat.sub_le _ _) t.isLt)) : Inv m c t.val t.isLt := by
  have e := (outsAt_last m c t h0 h1).trans (lastOuts_eq m c t h0 h1 _)
  have hd : (t.val - 1) / 44 = t.val / 44 := by omega
  have hk' : (t.val - 1) % 44 < 43 := by omega
  have hs : t.val % 44 = (t.val - 1) % 44 + 1 := by omega
  have h43 : (t.val - 1) % 44 + 1 = 43 := by omega
  refine ⟨?_, ?_, ?_, ?_⟩
  · intro r j; rw [e]
    show ((outsAt m c (t.val - 1) (Nat.lt_of_le_of_lt (Nat.sub_le _ _) t.isLt)).2.1 : S512x4096.Idx → EReal) (ix2 r j) = _
    rw [ih.xs r j, hd]
  · intro r j h; exact absurd h1 h
  · intro r j _
    rw [e]
    unfold outRow
    refine norm_step5 _ (anwRow m c) (k0_pay3 (F := Ideal) (outsAt m c (t.val - 1) (Nat.lt_of_le_of_lt (Nat.sub_le _ _) t.isLt)).1 (outsAt m c (t.val - 1) (Nat.lt_of_le_of_lt (Nat.sub_le _ _) t.isLt)).2.2 (iblk m c 3 t)) (iblk m c 4 t) r ?_ (blk4 m c t) j
    intro j'
    rw [← h43]
    refine acc_step (w13Mat m c) (w2Mat m c) (tileRow m c (t.val / 44) r) (normRow (tileRow m c (t.val / 44) r) (fnwRow m c)) ((t.val - 1) % 44) hk' (outsAt m c (t.val - 1) (Nat.lt_of_le_of_lt (Nat.sub_le _ _) t.isLt)).1 (outsAt m c (t.val - 1) (Nat.lt_of_le_of_lt (Nat.sub_le _ _) t.isLt)).2.2 (iblk m c 3 t) r ?_ ?_ ?_ j'
    · intro j''; rw [ih.acc r j'' (by omega), hd]; rfl
    · intro p; rw [ih.gs hk' r p, hd]; rfl
    · intro p j''; exact blk3 m c t ((t.val - 1) % 44) hk' hs p j''
  · intro hk r p; omega

/-- The invariant holds after every point. -/
theorem inv_all (c : Dev nD) : ∀ (n : ℕ) (hn : n < cfg0.N), Inv m c n hn := by
  intro n
  induction n with
  | zero => intro hn; exact inv_first m c ⟨0, hn⟩ (Nat.zero_mod _)
  | succ n ih =>
    intro hn
    by_cases h0 : (n + 1) % 44 = 0
    · exact inv_first m c ⟨n + 1, hn⟩ h0
    · by_cases h1 : (n + 1) % 44 = 43
      · exact inv_last m c ⟨n + 1, hn⟩ h0 h1 (ih (Nat.lt_of_succ_lt hn))
      · exact inv_mid m c ⟨n + 1, hn⟩ h0 h1 (ih (Nat.lt_of_succ_lt hn))

end Cert.KernelIdeal.KernValue

end
-- ==== Proof.LibRowsReshape.lean ====
/-
  Merging the two leading axes of a rank-3 array into one row axis, and splitting them again, read at an index.

  A reshape keeps the row-major position. For `[a, b, c]` and `[a * b, c]` the element (i, j, k) sits at position
  `(i * b + j) * c + k`, and the element (r, k) at `r * c + k`: the two are the same element exactly when `r = i * b + j`.
-/
import Idealize.ShloMosaic.Lib.Pipeline.Value
import Idealize.ShloMosaic.Lib.ValueIdx

noncomputable section

namespace Cert.LibRowsReshape

open Idealize.ShloMosaic Idealize.ShloMosaic.ValueIdx

variable {α : Type}

/-- `[a, b, c]` cast to `[ab, c]`: row `r = i * b + j` at column `k` is the operand at (i, j, k). -/
theorem merge_apply {a b c ab : ℕ} (x : (⟨3, ![a, b, c]⟩ : Shape).Idx → α)
    (h : (⟨3, ![a, b, c]⟩ : Shape).ShapeCasts ⟨2, ![ab, c]⟩) (i : Fin a) (j : Fin b) (k : Fin c) (r : Fin ab)
    (hr : r.val = i.val * b + j.val) : shapeCast ⟨2, ![ab, c]⟩ x h (ix2 r k) = x (ix3 i j k) :=
  shapeCast_apply x h _ _ (by
    rw [Shape.rowMajor_val_two, Shape.rowMajor_val_three]
    show (i.val * b + j.val) * c + k.val = r.val * c + k.val
    rw [hr])

/-- `[ab, c]` cast to `[a, b, c]`: the element (i, j, k) is the operand's row `r = i * b + j` at column `k`. -/
theorem split_apply {a b c ab : ℕ} (x : (⟨2, ![ab, c]⟩ : Shape).Idx → α)
    (h : (⟨2, ![ab, c]⟩ : Shape).ShapeCasts ⟨3, ![a, b, c]⟩) (i : Fin a) (j : Fin b) (k : Fin c) (r : Fin ab)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibRowsReshape

end
-- ==== Proof.KernArray.lean ====
/-
  From blocks to the array, and through the host reshapes: the kernel's result as the specification's function of
  its argument arrays.

  The output block of tile `a` is written back once, after step 43, when it holds the result rows of the tile's 512
  token rows; the four tiles' blocks are the row ranges `[512·a, 512·a + 512)` and cover the `[2048, 4096]` array. The
  token array the region reads is the `[4, 512, 4096]` argument with its two leading axes merged (row `512·b + s` is
  token `(b, s)`), and the result is the region's array split back the same way; so entry `(b, s, j)` of the result is
  entry `j` of the result row of token row `(b, s)`.
-/
import proofs.«103741_g2000106300617579_pallasbulk_765_8_alg».proof.Proof.KernInduct
import proofs.«103741_g2000106300617579_pallasbulk_765_8_alg».proof.Proof.LibRowsReshape
import Idealize.ShloMosaic.Lib.StableHlo.Run

set_option maxRecDepth 16384

noncomputable section

namespace Cert.KernelIdeal.KernValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Ffn

variable (m : (ℓ : Loc nD τ sig) → Buf (Elt Ideal) ℓ) (ρ : Dev nD → PrngReg)

/-- The region's result array as one function of the arrays it reads: row `R` is the result row of token row `R`. -/
def outArr (c : Dev nD) : S2048x4096.Idx → EReal :=
  fun i => outRow (fun j => (V m c main_v0 : S2048x4096.Idx → EReal) (ix2 (i 0) j)) (fnwRow m c) (w13Mat m c) (w2Mat m c) (anwRow m c) (i 1)

/-- What a write-back point writes back is its block of `outArr`. -/
theorem flushed_eq (c : Dev nD) (t : Fin cfg0.N) (hf : (cfg0.win 5).flush t = true) :
    (dats m 0 c).flushed 5 t = ((cfg0.win 5).blk t).view.read (Elt Ideal) (outArr m c) := by
  have hN : t.val < 176 := lt_of_lt_of_eq t.isLt (show cfg0.N = 176 from N_0)
  have h43 : t.val % 44 = 43 := (flush0_5 t).mp hf
  obtain ⟨-, -, -, -, -, -, -, -, -, -, e0, e1⟩ := idx_facts t
  show (cfg0.win 5).cut (grid0.coords t) ((dats m 0 c).after 5 t) = _
  rw [after5]
  funext y
  obtain ⟨r, j, rfl⟩ : ∃ (r : Fin 512) (j : Fin 4096), y = ix2 r j := ⟨y 0, y 1, eq_ix2 y⟩
  have hb : t.val / 44 * 512 + r.val < 2048 := by have := r.isLt; omega
  have hemb : ((cfg0.win 5).blk t).view.emb (ix2 r j) = ix2 (⟨t.val / 44 * 512 + r.val, hb⟩ : Fin 2048) j := by
    funext a; apply Fin.ext
    match a with
    | ⟨0, _⟩ => show win0_5.index t (0 : Fin 2) * 512 + 1 * r.val = t.val / 44 * 512 + r.val; omega
    | ⟨1, _⟩ => show win0_5.index t (1 : Fin 2) * 4096 + 1 * j.val = j.val; omega
  show ((outsAt m c t.val t.isLt).1 : S512x4096.Idx → EReal) (ix2 r j) = outArr m c (((cfg0.win 5).blk t).view.emb (ix2 r j))
  rw [hemb, (inv_all m c t.val t.isLt).out r j h43]
  have htr : tileRow m c (t.val / 44) r = fun j' => (V m c main_v0 : S2048x4096.Idx → EReal) (ix2 ⟨t.val / 44 * 512 + r.val, hb⟩ j') :=
    funext fun j' => dif_pos hb
  rw [htr]
  rfl

/-- An index of the array is in point `t`'s block iff each coordinate is in the block's range on its axis. -/
theorem mem_blk5 (t : Fin cfg0.N) (i : S2048x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v1).slice (win0_5.rect t)).set ↔ _
  rw [View.set_slice_whole, Rect.mem_set_unit]
  exact Iff.rfl

/-- Every row of the array is in the block some tile writes back after its last step. -/
theorem cover5 (i : S2048x4096.Idx) : ∃ t : Fin cfg0.N, (cfg0.win 5).flush t = true ∧ i ∈ ((cfg0.win 5).blk t).view.set := by
  have hi0 : (i 0).val < 2048 := (i 0).isLt
  have hi1 : (i 1).val < 4096 := (i 1).isLt
  have hN : (i 0).val / 512 * 44 + 43 < cfg0.N := by rw [show cfg0.N = 176 from N_0]; omega
  obtain ⟨-, -, -, -, -, -, -, -, -, -, e0, e1⟩ := idx_facts ⟨(i 0).val / 512 * 44 + 43, hN⟩
  dsimp only at e0 e1
  refine ⟨⟨(i 0).val / 512 * 44 + 43, hN⟩, (flush0_5 _).mpr (by dsimp only; omega), ?_⟩
  rw [mem_blk5]
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 4096 ≤ (i 1).val ∧ (i 1).val < win0_5.index _ (1 : Fin 2) * 4096 + 4096; omega

/-- The region's result array after the run. -/
theorem final5 (c : Dev nD) : (dats m 0 c).arrAt 5 cfg0.N = outArr m c :=
  (dats m 0 c).arrAt_eq_of_cover 5 (outArr m c) (fun t hf => flushed_eq m c t hf) cover5

/-! ## The host reshapes around the region -/

/-- The token array the region reads is the argument with its two leading axes merged. -/
theorem V_tokens (c : Dev nD) :
    (V m c main_v0 : S2048x4096.Idx → EReal) = shapeCast S2048x4096 (m ((c : Thread nD τ).loc main_arg0)) shapeCasts_S4x512x4096_S2048x4096 := by
  show StableHlo.after hostOps0 (fun b => m (c, b)) (Proc.devRef .tc main_v0) = _
  after_results
  rfl

/-- The program's result is the region's array split back into `[4, 512, 4096]`. -/
theorem tail_eq (c : Dev nD) :
    (Pipeline.afterTail₀ cfgs (dats m) 0 (V0 m) [hostOps1] c main_v2 : S4x512x4096.Idx → EReal)
      = shapeCast S4x512x4096 (outArr m c) shapeCasts_S2048x4096_S4x512x4096 := by
  unfold Pipeline.afterTail₀
  show StableHlo.after hostOps1 _ (Proc.devRef .tc main_v2) = _
  after_results
  exact congrArg (fun x : S2048x4096.Idx → EReal => shapeCast S4x512x4096 x shapeCasts_S2048x4096_S4x512x4096)
    ((Pipeline.withArrays_arr spec0 launch0.win.arr_inj c _ _ 5).trans (final5 m c))

/-- Entry `(b, s, j)` of that array is entry `j` of the result row of token row `(b, s)`: the specification. -/
theorem result_eq (c : Dev nD) :
    shapeCast S4x512x4096 (outArr m c) shapeCasts_S2048x4096_S4x512x4096
      = Cert.Ffn.result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, j, rfl⟩ : ∃ (b : Fin 4) (s : Fin 512) (j : Fin 4096), i = ix3 b s j := ⟨i 0, i 1, i 2, eq_ix3 i⟩
  have hR : b.val * 512 + s.val < 2048 := by have := b.isLt; have := s.isLt; omega
  rw [Cert.LibRowsReshape.split_apply (outArr m c) shapeCasts_S2048x4096_S4x512x4096 b s j ⟨b.val * 512 + s.val, hR⟩ rfl]
  have hrow : (fun j' => (V m c main_v0 : S2048x4096.Idx → EReal) (ix2 (⟨b.val * 512 + s.val, hR⟩ : Fin 2048) j'))
      = fun j' => (m ((c : Thread nD τ).loc main_arg0)) (ix3 b s j') := funext fun j' => by
    rw [V_tokens]
    exact Cert.LibRowsReshape.merge_apply _ shapeCasts_S4x512x4096_S2048x4096 b s j' ⟨b.val * 512 + s.val, hR⟩ rfl
  have h1 : fnwRow m c = fun j' => (m ((c : Thread nD τ).loc main_arg1)) (ix2 0 j') := by unfold fnwRow; rw [V_main_arg1]
  have h2 : w13Mat m c = fun a q => (m ((c : Thread nD τ).loc main_arg2)) (ix2 a q) := by unfold w13Mat; rw [V_main_arg2]
  have h3 : w2Mat m c = fun p j' => (m ((c : Thread nD τ).loc main_arg3)) (ix2 p j') := by unfold w2Mat; rw [V_main_arg3]
  have h4 : anwRow m c = fun j' => (m ((c : Thread nD τ).loc main_arg4)) (ix2 0 j') := by unfold anwRow; rw [V_main_arg4]
  show outRow (fun j' => (V m c main_v0 : S2048x4096.Idx → EReal) (ix2 (⟨b.val * 512 + s.val, hR⟩ : Fin 2048) j')) (fnwRow m c) (w13Mat m c) (w2Mat m c) (anwRow m c) j = _
  rw [hrow, h1, h2, h3, h4]
  rfl

/-! ## The run, read -/

/-- Every execution of the program terminates with its result at the specification's function of the argument
    arrays, and the argument arrays unchanged. -/
theorem run : θ_run (defs (F := Ideal)) (onTc (τ := τ) (main (F := Ideal))) ⟨m, fun _ => 0, ρ⟩ (fun r => ∀ c : Dev nD,
      r.2.mem ((c.tc : Thread nD τ).loc main_v2)
          = Cert.Ffn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KernValue

end
-- ==== Proof.RefPieces.lean ====
/-
  What each control case of the kernel body leaves in the two carried scratch buffers and in the output block, as
  the body's arithmetic applied to the blocks the case reads.

  The body loads and stores whole buffers only. At a first hidden block (case A) it stores the normalised token
  rows into the first scratch and zeros into the second, then reads both back; at every block it adds the block's
  contribution to the second scratch; at a last hidden block (case C) it also stores the output block, computed from
  the token rows, the accumulator it has just stored and the second weight row. So each buffer ends at one payload
  of the case's loads, and a load that follows a store of the same buffer reads that store's payload.
-/
import proofs.«103741_g2000106300617579_pallasbulk_765_8_alg».proof.Proof.Gen.ReferenceIdeal.Frame
import Idealize.ShloMosaic.Lib.Pipeline.Value
import Idealize.ShloMosaic.Lib.Tactic

set_option maxRecDepth 16384

noncomputable section

namespace Cert.ReferenceIdeal.RefValue

open Idealize.ShloMosaic Idealize.ShloMosaic.TcCoe Idealize.ShloMosaic.Tactic Idealize.SL.Sem
open Cert.ReferenceIdeal Cert.ReferenceIdeal.Gen

variable {F : FTy → Type} [FloatOps F]

/-- The zero offsets of a rank-2 rectangle, as the constant function. -/
theorem hz : (![0, 0] : Fin 2 → Nat) = fun _ => 0 := funext fun a => by fin_cases a <;> rfl

/-- Case A, first scratch: the normalised rows of the token block. -/
theorem sout_A_0 (c : Dev nD) (i : grid0.Coords) (arg2 : Memref sig .tc .vmem S384x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S384x4096 .f32) (harg7 : arg7.IsWhole) (arg8 : Memref sig .tc .vmem S384x4096 .bf16) (harg8 : arg8.IsWhole) (arg9 : Memref sig .tc .vmem S384x4096 .f32) (harg9 : arg9.IsWhole) (hc0 : cond0_0 i) (hc1 : ¬cond0_1 i) (x0 : Vec F S384x4096 .f32) (x1 : Vec F S1x4096 .f32) (x2 : Vec F S4096x512 .bf16) (x3 : Vec F S256x4096 .bf16) (x4 : Vec F S1x4096 .f32) :
    sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, harg2.read_unread, harg3.read_unread, View.ld_unit_zero (S := S384x4096) hz, View.ld_unit_zero (S := S4096x512) hz, View.ld_unit_zero (S := S256x4096) hz, View.ld_unit_zero (S := S1x4096) hz]

/-- Case A, second scratch: the first block's contribution added to the zeros just stored, computed from the
    normalised rows just stored. -/
theorem sout_A_1 (c : Dev nD) (i : grid0.Coords) (arg2 : Memref sig .tc .vmem S384x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S384x4096 .f32) (harg7 : arg7.IsWhole) (arg8 : Memref sig .tc .vmem S384x4096 .bf16) (harg8 : arg8.IsWhole) (arg9 : Memref sig .tc .vmem S384x4096 .f32) (harg9 : arg9.IsWhole) (hc0 : cond0_0 i) (hc1 : ¬cond0_1 i) (x0 : Vec F S384x4096 .f32) (x1 : Vec F S1x4096 .f32) (x2 : Vec F S4096x512 .bf16) (x3 : Vec F S256x4096 .bf16) (x4 : Vec F S1x4096 .f32) :
    sout0_A_1 c i arg2 harg2 arg3 harg3 arg4 harg4 arg5 harg5 arg6 harg6 arg7 harg7 arg8 harg8 arg9 harg9 hc0 hc1 x0 x1 x2 x3 x4 = k0_pay3 (k0_pay1 x0 x1) x2 k0_pay2 x3 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S384x4096) hz]
  simp only [View.readCov_unit_zero (S := S384x4096) _ hz, View.readAt_eq_ld, harg2.read_unread, harg3.read_unread,
    harg4.read_unread, harg5.read_unread, View.ld_unit_zero (S := S384x4096) hz, View.ld_unit_zero (S := S4096x512) hz, View.ld_unit_zero (S := S256x4096) hz, View.ld_unit_zero (S := S1x4096) hz]

/-- Case B, second scratch: the block's contribution added to what the point before left. -/
theorem sout_B_1 (c : Dev nD) (i : grid0.Coords) (arg2 : Memref sig .tc .vmem S384x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S384x4096 .f32) (harg7 : arg7.IsWhole) (arg8 : Memref sig .tc .vmem S384x4096 .bf16) (harg8 : arg8.IsWhole) (arg9 : Memref sig .tc .vmem S384x4096 .f32) (harg9 : arg9.IsWhole) (hc0 : ¬cond0_0 i) (hc1 : ¬cond0_1 i) (x0 : Vec F S384x4096 .f32) (x1 : Vec F S1x4096 .f32) (x2 : Vec F S4096x512 .bf16) (x3 : Vec F S256x4096 .bf16) (x4 : Vec F S1x4096 .f32) (xs0 : Vec F S384x4096 .bf16) (xs1 : Vec F S384x4096 .f32) :
    sout0_B_1 c i arg2 harg2 arg3 harg3 arg4 harg4 arg5 harg5 arg6 harg6 arg7 harg7 arg8 harg8 arg9 harg9 hc0 hc1 x0 x1 x2 x3 x4 xs0 xs1 = k0_pay3 xs0 x2 xs1 x3 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz]
  simp only [View.readAt_eq_ld, harg8.read_unread, harg4.read_unread, harg9.read_unread, harg5.read_unread, View.ld_unit_zero (S := S384x4096) hz, View.ld_unit_zero (S := S4096x512) hz, View.ld_unit_zero (S := S256x4096) hz, View.ld_unit_zero (S := S1x4096) hz]

/-- Case C, second scratch: the same. -/
theorem sout_C_1 (c : Dev nD) (i : grid0.Coords) (arg2 : Memref sig .tc .vmem S384x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S384x4096 .f32) (harg7 : arg7.IsWhole) (arg8 : Memref sig .tc .vmem S384x4096 .bf16) (harg8 : arg8.IsWhole) (arg9 : Memref sig .tc .vmem S384x4096 .f32) (harg9 : arg9.IsWhole) (hc0 : ¬cond0_0 i) (hc1 : cond0_1 i) (x0 : Vec F S384x4096 .f32) (x1 : Vec F S1x4096 .f32) (x2 : Vec F S4096x512 .bf16) (x3 : Vec F S256x4096 .bf16) (x4 : Vec F S1x4096 .f32) (xs0 : Vec F S384x4096 .bf16) (xs1 : Vec F S384x4096 .f32) :
    sout0_C_1 c i arg2 harg2 arg3 harg3 arg4 harg4 arg5 harg5 arg6 harg6 arg7 harg7 arg8 harg8 arg9 harg9 hc0 hc1 x0 x1 x2 x3 x4 xs0 xs1 = k0_pay3 xs0 x2 xs1 x3 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg8.read_unread, harg4.read_unread, harg9.read_unread, harg5.read_unread, View.ld_unit_zero (S := S384x4096) hz, View.ld_unit_zero (S := S4096x512) hz, View.ld_unit_zero (S := S256x4096) hz, View.ld_unit_zero (S := S1x4096) hz]

/-- Case C, the output block: the final payload of the token block, the accumulator just stored and the second
    weight row. -/
theorem out_C_5 (c : Dev nD) (i : grid0.Coords) (arg2 : Memref sig .tc .vmem S384x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S384x4096 .f32) (harg7 : arg7.IsWhole) (arg8 : Memref sig .tc .vmem S384x4096 .bf16) (harg8 : arg8.IsWhole) (arg9 : Memref sig .tc .vmem S384x4096 .f32) (harg9 : arg9.IsWhole) (hc0 : ¬cond0_0 i) (hc1 : cond0_1 i) (x0 : Vec F S384x4096 .f32) (x1 : Vec F S1x4096 .f32) (x2 : Vec F S4096x512 .bf16) (x3 : Vec F S256x4096 .bf16) (x4 : Vec F S1x4096 .f32) (xs0 : Vec F S384x4096 .bf16) (xs1 : Vec F S384x4096 .f32) :
    out0_C_5 c i arg2 harg2 arg3 harg3 arg4 harg4 arg5 harg5 arg6 harg6 arg7 harg7 arg8 harg8 arg9 harg9 hc0 hc1 x0 x1 x2 x3 x4 xs0 xs1 = k0_pay4 x0 (k0_pay3 xs0 x2 xs1 x3) x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_unit_zero (S := S384x4096) _ hz, View.readAt_eq_ld, harg2.read_unread, harg6.read_unread,
    harg8.read_unread, harg4.read_unread, harg9.read_unread, harg5.read_unread, View.ld_unit_zero (S := S384x4096) hz, View.ld_unit_zero (S := S4096x512) hz, View.ld_unit_zero (S := S256x4096) hz, View.ld_unit_zero (S := S1x4096) hz]

end Cert.ReferenceIdeal.RefValue

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.RefPayload.lean ====
/-
  The body's four stored values read at one entry, on the extended reals, as functions of ONE row of each operand.

  Entry (r, j) of the normalised block depends on row r of the token block and on the weight row only: the row
  times the reciprocal root of (its sum of squares times 1/4096 plus the small constant), times the weight's entry j.
  Entry (r, j) of a hidden block's contribution depends on row r of the normalised block: that row times the
  4096 × 512 weight block, the gate of the two halves of the resulting 512 entries, and the 256 gated entries times
  column j of the 256 × 4096 weight block. A change of float format is the identity on the extended reals, a matrix
  product into the zero constant is the plain sum of products, and the lane sum is a finite sum.
-/
import proofs.«103741_g2000106300617579_pallasbulk_765_8_alg».proof.Proof.Gen.ReferenceIdeal.Skeleton
import proofs.«103741_g2000106300617579_pallasbulk_765_8_alg».proof.Proof.FfnSpec
import proofs.«103741_g2000106300617579_pallasbulk_765_8_alg».proof.Proof.LibDense
import proofs.«103741_g2000106300617579_pallasbulk_765_8_alg».proof.Proof.LibAxisSum
import proofs.«103741_g2000106300617579_pallasbulk_765_8_alg».proof.Proof.LibSoftmaxRow
import Idealize.ShloMosaic.Lib.ValueLayout
import Idealize.ShloMosaic.Lib.Pipeline.Value

set_option maxRecDepth 16384

noncomputable section

namespace Cert.ReferenceIdeal.RefValue

open Idealize.ShloMosaic Idealize.ShloMosaic.ValueIdx
open Cert.ReferenceIdeal Cert.ReferenceIdeal.Gen Cert.Ffn

/-- The lane sum of a 384 × 4096 block at row r is the sum of that row. -/
theorem laneSum_apply (src : FVec Ideal S384x4096 .f32) (r : Fin 384) :
    multiReduction .add [1] S384 src 0x00000000#32 reduces_S384x4096_S384 (.inl rfl) rfl (ix1 r)
      = ∑ k : Fin 4096, src (ix2 r k) :=
  Cert.LibAxisSum.sum_last src _ _ _ _ r

/-- A block scaled row by row by the reciprocal root of its mean square and entry by entry by a weight row, at an entry. -/
theorem rms_apply (y : FVec Ideal S384x4096 .f32) (w : FVec Ideal S1x4096 .f32) (r : Fin 384) (j : Fin 4096) :
    mulf (mulf y (broadcastTo S384x4096 (rsqrt (addf (mulf (shapeCast S384x1
        (multiReduction .add [1] S384 (mulf y y) 0x00000000#32 reduces_S384x4096_S384 (.inl rfl) rfl) shapeCasts_S384_S384x1)
        (broadcast S384x1 (Scalar.ofBits (F := Ideal) .f32 0x39800000#32)))
        (broadcast S384x1 (Scalar.ofBits (F := Ideal) .f32 0x358637BD#32)))) broadcasts_S384x1_S384x4096))
      (broadcastTo S384x4096 w broadcasts_S1x4096_S384x4096) (ix2 r j)
      = normRow (fun k => y (ix2 r k)) (fun k => w (ix2 0 k)) j := by
  unfold normRow invDim eps
  show (y (ix2 r j) * broadcastTo S384x4096 _ broadcasts_S384x1_S384x4096 (ix2 r j))
      * broadcastTo S384x4096 w broadcasts_S1x4096_S384x4096 (ix2 r j) = _
  rw [Cert.LibSoftmaxRow.broadcastTo_a1_ab_apply, broadcastTo_1b_ab_apply]
  show (y (ix2 r j) * Ideal.rsqrt (shapeCast S384x1 _ shapeCasts_S384_S384x1 (ix2 r (0 : Fin 1))
      * Ideal.ofBits .f32 0x39800000#32 + Ideal.ofBits .f32 0x358637BD#32)) * w (ix2 0 j) = _
  rw [Cert.LibSoftmaxRow.shapeCast_a_a1_apply, laneSum_apply]
  rfl

/-- The normalised block at an entry. -/
theorem pay1_apply (h : Vec Ideal S384x4096 .f32) (w : Vec Ideal S1x4096 .f32) (r : Fin 384) (j : Fin 4096) :
    k0_pay1 (F := Ideal) h w (ix2 r j) = normRow (fun k => h (ix2 r k)) (fun k => w (ix2 0 k)) j := by
  unfold k0_pay1
  simp only [shapeCast_self]
  exact rms_apply h w r j

/-- The zero block at an entry. -/
theorem pay2_apply (i : S384x4096.Idx) : k0_pay2 (F := Ideal) i = 0 := by
  unfold k0_pay2
  simp only [shapeCast_self]
  exact Ideal.ofBits_zero_f32

/-- The first product, into the zero constant, at an entry. -/
theorem matmul1_apply (a : FVec Ideal S384x4096 .bf16) (w : FVec Ideal S4096x512 .bf16) (r : Fin 384) (q : Fin 512) :
    matmul dot_S384x4096_S4096x512_S384x512_1_0_0_1_n_n none a w (constant (F := Ideal) S384x512 .f32 0x00000000#32) (ix2 r q)
      = ∑ k : Fin 4096, a (ix2 r k) * w (ix2 k q) :=
  (Cert.LibDense.matmul_plain (M := 384) (K := 4096) (N := 512) a w (ix2 r q)).trans rfl

/-- The second product, into the zero constant, at an entry. -/
theorem matmul2_apply (a : FVec Ideal S384x256 .bf16) (w : FVec Ideal S256x4096 .bf16) (r : Fin 384) (j : Fin 4096) :
    matmul dot_S384x256_S256x4096_S384x4096_1_0_0_1_n_n none a w (constant (F := Ideal) S384x4096 .f32 0x00000000#32) (ix2 r j)
      = ∑ p : Fin 256, a (ix2 r p) * w (ix2 p j) :=
  (Cert.LibDense.matmul_plain (M := 384) (K := 256) (N := 4096) a w (ix2 r j)).trans rfl

/-- A hidden block's contribution added to the accumulator, at an entry. -/
theorem pay3_apply (x : Vec Ideal S384x4096 .bf16) (w13 : Vec Ideal S4096x512 .bf16) (acc : Vec Ideal S384x4096 .f32)
    (w2 : Vec Ideal S256x4096 .bf16) (r : Fin 384) (j : Fin 4096) :
    k0_pay3 (F := Ideal) x w13 acc w2 (ix2 r j)
      = acc (ix2 r j) + downRow (gateRow (upRow (fun k => x (ix2 r k)) fun a q => w13 (ix2 a q))) (fun p c => w2 (ix2 p c)) j := by
  unfold k0_pay3
  simp only [shapeCast_self]
  show acc (ix2 r j) + matmul dot_S384x256_S256x4096_S384x4096_1_0_0_1_n_n none _ w2
      (constant (F := Ideal) S384x4096 .f32 0x00000000#32) (ix2 r j) = _
  rw [matmul2_apply]
  unfold downRow
  refine congrArg (acc (ix2 r j) + ·) (Finset.sum_congr rfl fun p _ => congrArg (· * w2 (ix2 p j)) ?_)
  have hp := p.isLt
  show (extractStridedSlice (s := S384x512) S384x256 ![0, 0] _ slices_S384x512_o0_0_S384x256 (ix2 r p)
      * Ideal.logistic (extractStridedSlice (s := S384x512) S384x256 ![0, 0] _ slices_S384x512_o0_0_S384x256 (ix2 r p)))
      * extractStridedSlice (s := S384x512) S384x256 ![0, 256] _ slices_S384x512_o0_256_S384x256 (ix2 r p) = _
  rw [slice2_axis1_apply 0 _ slices_S384x512_o0_0_S384x256 r p ⟨p.val, by omega⟩ (by simp),
    slice2_axis1_apply 256 _ slices_S384x512_o0_256_S384x256 r p ⟨256 + p.val, by omega⟩ rfl,
    matmul1_apply, matmul1_apply]
  rfl

/-- The output block at an entry: the token row plus the accumulated row, normalised and scaled by the second weight row. -/
theorem pay4_apply (h : Vec Ideal S384x4096 .f32) (acc : Vec Ideal S384x4096 .f32) (w : Vec Ideal S1x4096 .f32)
    (r : Fin 384) (j : Fin 4096) :
    k0_pay4 (F := Ideal) h acc w (ix2 r j)
      = normRow (fun k => h (ix2 r k) + acc (ix2 r k)) (fun k => w (ix2 0 k)) j := by
  unfold k0_pay4
  simp only [shapeCast_self]
  exact rms_apply (addf h acc) w r j

end Cert.ReferenceIdeal.RefValue

end
-- ==== Proof.RefStep.lean ====
/-
  One grid point's effect on one token row, in the terms of the specification.

  With the row's normalised form `x` in the first scratch and the first `k` block terms accumulated in the second,
  the body at hidden block `k` leaves the first `k + 1` terms accumulated: the block of the gate/up weights the point
  reads is columns `512k … 512k + 512` and the block of the down weights rows `256k … 256k + 256`, which is what
  the specification's `term` reads. At the last block the output row is the token row plus the 43 accumulated
  terms, normalised and scaled.
-/
import proofs.«103741_g2000106300617579_pallasbulk_765_8_alg».proof.Proof.RefPayload

noncomputable section

namespace Cert.ReferenceIdeal.RefValue

open Idealize.ShloMosaic Idealize.ShloMosaic.ValueIdx
open Cert.ReferenceIdeal Cert.ReferenceIdeal.Gen Cert.Ffn

/-- The contribution computed from weight blocks that are block `k` of the two weight arrays is the specification's
    term `k`. -/
theorem term_block (W13 : Fin 4096 → Fin 22016 → EReal) (W2 : Fin 11008 → Fin 4096 → EReal) (x : Fin 4096 → EReal)
    (k : ℕ) (hk : k < 43) (b13 : Fin 4096 → Fin 512 → EReal) (b2 : Fin 256 → Fin 4096 → EReal)
    (h13 : ∀ (a : Fin 4096) (q : Fin 512), b13 a q = W13 a ⟨k * 512 + q.val, by have := q.isLt; omega⟩)
    (h2 : ∀ (p : Fin 256) (j : Fin 4096), b2 p j = W2 ⟨k * 256 + p.val, by have := p.isLt; omega⟩ j) :
    downRow (gateRow (upRow x b13)) b2 = term W13 W2 x k := by
  unfold term
  rw [dif_pos hk]
  have e13 : b13 = fun a q => W13 a ⟨k * 512 + q.val, by have := q.isLt; omega⟩ := funext fun a => funext fun q => h13 a q
  have e2 : b2 = fun p j => W2 ⟨k * 256 + p.val, by have := p.isLt; omega⟩ j := funext fun p => funext fun j => h2 p j
  rw [e13, e2]

/-- The normalised block's row `r`, from the token block's row and the weight row. -/
theorem pay1_row (h0 : Vec Ideal S384x4096 .f32) (w1 : Vec Ideal S1x4096 .f32) (hrow fnw : Fin 4096 → EReal) (r : Fin 384)
    (hh : ∀ q : Fin 4096, h0 (ix2 r q) = hrow q) (hw : ∀ q : Fin 4096, w1 (ix2 0 q) = fnw q) (j : Fin 4096) :
    k0_pay1 (F := Ideal) h0 w1 (ix2 r j) = normRow hrow fnw j := by
  rw [pay1_apply]
  have e1 : (fun k => h0 (ix2 r k)) = hrow := funext hh
  have e2 : (fun k => w1 (ix2 0 k)) = fnw := funext hw
  rw [e1, e2]

/-- The accumulator's row `r` after hidden block `k`, from its row before and the row of the normalised block. -/
theorem pay3_step (xs0 : Vec Ideal S384x4096 .bf16) (b13 : Vec Ideal S4096x512 .bf16) (xs1 : Vec Ideal S384x4096 .f32)
    (b2 : Vec Ideal S256x4096 .bf16) (W13 : Fin 4096 → Fin 22016 → EReal) (W2 : Fin 11008 → Fin 4096 → EReal)
    (x : Fin 4096 → EReal) (k : ℕ) (hk : k < 43) (r : Fin 384)
    (hx : ∀ q : Fin 4096, xs0 (ix2 r q) = x q)
    (hacc : ∀ q : Fin 4096, xs1 (ix2 r q) = accFrom (fun _ => 0) (term W13 W2 x) k q)
    (h13 : ∀ (a : Fin 4096) (q : Fin 512), b13 (ix2 a q) = W13 a ⟨k * 512 + q.val, by have := q.isLt; omega⟩)
    (h2 : ∀ (p : Fin 256) (j : Fin 4096), b2 (ix2 p j) = W2 ⟨k * 256 + p.val, by have := p.isLt; omega⟩ j) (j : Fin 4096) :
    k0_pay3 (F := Ideal) xs0 b13 xs1 b2 (ix2 r j) = accFrom (fun _ => 0) (term W13 W2 x) (k + 1) j := by
  rw [pay3_apply, accFrom_succ, hacc j,
    ← term_block W13 W2 x k hk (fun a q => b13 (ix2 a q)) (fun p c => b2 (ix2 p c)) h13 h2]
  have ex : (fun q => xs0 (ix2 r q)) = x := funext hx
  rw [ex]

/-- The output block's row `r`, from the token block's row, the accumulator's row and the second weight row. -/
theorem pay4_row (h0 : Vec Ideal S384x4096 .f32) (acc : Vec Ideal S384x4096 .f32) (w4 : Vec Ideal S1x4096 .f32)
    (hrow fnw anw : Fin 4096 → EReal) (W13 : Fin 4096 → Fin 22016 → EReal) (W2 : Fin 11008 → Fin 4096 → EReal) (r : Fin 384)
    (hh : ∀ q : Fin 4096, h0 (ix2 r q) = hrow q)
    (hacc : ∀ q : Fin 4096, acc (ix2 r q) = accFrom (fun _ => 0) (term W13 W2 (normRow hrow fnw)) 43 q)
    (hw : ∀ q : Fin 4096, w4 (ix2 0 q) = anw q) (j : Fin 4096) :
    k0_pay4 (F := Ideal) h0 acc w4 (ix2 r j) = outRowRef hrow fnw W13 W2 anw j := by
  rw [pay4_apply]
  unfold outRowRef
  have e1 : (fun k => h0 (ix2 r k) + acc (ix2 r k))
      = fun q => hrow q + accFrom (fun _ => 0) (term W13 W2 (normRow hrow fnw)) 43 q := funext fun q => by rw [hh, hacc]
  have e2 : (fun k => w4 (ix2 0 k)) = anw := funext hw
  rw [e1, e2]

end Cert.ReferenceIdeal.RefValue

end
-- ==== Proof.RefBlocks.lean ====
/-
  Where the six windows' blocks sit in their arrays, and what the arrays hold when the region is entered.

  The grid is 6 × 43, walked row-major: point t has token tile t / 43 and hidden block t % 43. The token window and the
  output window take rows 384·(t / 43) … of their 2304 × 4096 arrays; the gate/up window takes columns 512·(t % 43) … of the
  4096 × 22016 weights; the down window takes rows 256·(t % 43) … of the 11008 × 4096 weights; the two weight rows are
  taken whole. An element of a block sits in its array, on each axis, at block index × block size + its own coordinate.
  The token array the region reads is the argument reshaped to 2048 rows and padded below with 256 rows: its row
  R < 2048 is row (R / 512, R % 512) of the argument.
-/
import proofs.«103741_g2000106300617579_pallasbulk_765_8_alg».proof.Proof.Gen.ReferenceIdeal.Frame
import proofs.«103741_g2000106300617579_pallasbulk_765_8_alg».proof.Proof.LibRowsReshape
import Idealize.ShloMosaic.Lib.Pipeline.Value
import Idealize.ShloMosaic.Lib.KernelVsHost
import Idealize.ShloMosaic.Lib.Tactic

set_option maxRecDepth 16384

noncomputable section

namespace Cert.ReferenceIdeal.RefValue

open Idealize.ShloMosaic Idealize.ShloMosaic.TcCoe Idealize.ShloMosaic.Tactic Idealize.SL.Sem
open Idealize.ShloMosaic.ValueIdx
open Cert.ReferenceIdeal Cert.ReferenceIdeal.Gen

variable {F : FTy → Type} [FloatOps F]
variable (m : (ℓ : Loc nD τ sig) → Buf (Elt F) ℓ)

/-- The printed index maps over the grid: the token tile is t / 43 and the hidden block t % 43. -/
theorem idx_facts : ∀ t : Fin cfg0.N,
    win0_0.index t (0 : Fin 2) = t.val / 43 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 43
    ∧ win0_3.index t (0 : Fin 2) = t.val % 43 ∧ win0_3.index t (1 : Fin 2) = 0
    ∧ win0_4.index t (0 : Fin 2) = 0 ∧ win0_4.index t (1 : Fin 2) = 0
    ∧ win0_5.index t (0 : Fin 2) = t.val / 43 ∧ win0_5.index t (1 : Fin 2) = 0 :=
  (by decide +kernel : ∀ t : Fin grid0.N, _)

/-- The token block at point t: rows 384·(t / 43) … of the padded token array. -/
theorem iblk0_apply (c : Dev nD) (t : Fin cfg0.N) (r : Fin 384) (j : Fin 4096) (R : Fin 2304)
    (hR : R.val = t.val / 43 * 384 + r.val) :
    (iblk m c 0 t : Vec F S384x4096 .f32) (ix2 r j) = (V m c main_v1 : Vec F S2304x4096 .f32) (ix2 R j) := by
  unfold iblk
  rw [View.read_apply]
  show V m c main_v1 (((cfg0.win 0).blk t).view.emb (ix2 r j)) = V m c main_v1 (ix2 R j)
  refine congrArg (V m c main_v1) (funext fun a => Fin.ext ?_)
  obtain ⟨e0, e1, -⟩ := idx_facts t
  match a with
  | ⟨0, _⟩ => show win0_0.index t (0 : Fin 2) * 384 + 1 * r.val = R.val; rw [e0, hR]; omega
  | ⟨1, _⟩ => show win0_0.index t (1 : Fin 2) * 4096 + 1 * j.val = j.val; rw [e1]; omega

/-- The first weight row's block is the whole row. -/
theorem iblk1_apply (c : Dev nD) (t : Fin cfg0.N) (j : Fin 4096) :
    (iblk m c 1 t : Vec F S1x4096 .f32) (ix2 (0 : Fin 1) j) = (V m c main_arg1 : Vec F S1x4096 .f32) (ix2 (0 : Fin 1) j) := by
  unfold iblk
  rw [View.read_apply]
  show V m c main_arg1 (((cfg0.win 1).blk t).view.emb (ix2 (0 : Fin 1) j)) = V m c main_arg1 (ix2 (0 : Fin 1) j)
  refine congrArg (V m c main_arg1) (funext fun a => Fin.ext ?_)
  obtain ⟨-, -, e0, e1, -⟩ := idx_facts t
  match a with
  | ⟨0, _⟩ => show win0_1.index t (0 : Fin 2) * 1 + 1 * 0 = 0; rw [e0]
  | ⟨1, _⟩ => show win0_1.index t (1 : Fin 2) * 4096 + 1 * j.val = j.val; rw [e1]; omega

/-- The gate/up weights' block at point t: columns 512·(t % 43) …. -/
theorem iblk2_apply (c : Dev nD) (t : Fin cfg0.N) (a : Fin 4096) (q : Fin 512) (Q : Fin 22016)
    (hQ : Q.val = t.val % 43 * 512 + q.val) :
    (iblk m c 2 t : Vec F S4096x512 .bf16) (ix2 a q) = (V m c main_arg2 : Vec F S4096x22016 .bf16) (ix2 a Q) := by
  unfold iblk
  rw [View.read_apply]
  show V m c main_arg2 (((cfg0.win 2).blk t).view.emb (ix2 a q)) = V m c main_arg2 (ix2 a Q)
  refine congrArg (V m c main_arg2) (funext fun b => Fin.ext ?_)
  obtain ⟨-, -, -, -, e0, e1, -⟩ := idx_facts t
  match b with
  | ⟨0, _⟩ => show win0_2.index t (0 : Fin 2) * 4096 + 1 * a.val = a.val; rw [e0]; omega
  | ⟨1, _⟩ => show win0_2.index t (1 : Fin 2) * 512 + 1 * q.val = Q.val; rw [e1, hQ]; omega

/-- The down weights' block at point t: rows 256·(t % 43) …. -/
theorem iblk3_apply (c : Dev nD) (t : Fin cfg0.N) (p : Fin 256) (j : Fin 4096) (Pp : Fin 11008)
    (hP : Pp.val = t.val % 43 * 256 + p.val) :
    (iblk m c 3 t : Vec F S256x4096 .bf16) (ix2 p j) = (V m c main_arg3 : Vec F S11008x4096 .bf16) (ix2 Pp j) := by
  unfold iblk
  rw [View.read_apply]
  show V m c main_arg3 (((cfg0.win 3).blk t).view.emb (ix2 p j)) = V m c main_arg3 (ix2 Pp j)
  refine congrArg (V m c main_arg3) (funext fun b => Fin.ext ?_)
  obtain ⟨-, -, -, -, -, -, e0, e1, -⟩ := idx_facts t
  match b with
  | ⟨0, _⟩ => show win0_3.index t (0 : Fin 2) * 256 + 1 * p.val = Pp.val; rw [e0, hP]; omega
  | ⟨1, _⟩ => show win0_3.index t (1 : Fin 2) * 4096 + 1 * j.val = j.val; rw [e1]; omega

/-- The second weight row's block is the whole row. -/
theorem iblk4_apply (c : Dev nD) (t : Fin cfg0.N) (j : Fin 4096) :
    (iblk m c 4 t : Vec F S1x4096 .f32) (ix2 (0 : Fin 1) j) = (V m c main_arg4 : Vec F S1x4096 .f32) (ix2 (0 : Fin 1) j) := by
  unfold iblk
  rw [View.read_apply]
  show V m c main_arg4 (((cfg0.win 4).blk t).view.emb (ix2 (0 : Fin 1) j)) = V m c main_arg4 (ix2 (0 : Fin 1) j)
  refine congrArg (V m c main_arg4) (funext fun a => Fin.ext ?_)
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 4096 + 1 * j.val = j.val; rw [e1]; omega

/-- The token array the region reads: the argument reshaped to 2048 rows, padded below with 256 rows. -/
theorem V_main_v1 (c : Dev nD) :
    (V m c main_v1 : Vec F S2304x4096 .f32)
      = pad S2304x4096 ![0, 0] ![256, 0] ![0, 0]
          (shapeCast S2048x4096 (m ((c : Thread nD τ).loc main_arg0)) shapeCasts_S4x512x4096_S2048x4096)
          (sitofp (F := F) .f32 (constantI S_ 32 0#32)) pads_S2048x4096_S2304x4096_02560_000 h_S_ := by
  dsimp only [Gen.V, Gen.V0]
  simp only [Gen.hostOps0, Gen.hostOps0_1, List.flatten_cons, List.flatten_nil, List.append_nil, List.cons_append,
    List.nil_append]
  after_results
  rfl

/-- Row R < 2048 of it is row (R / 512, R % 512) of the argument. -/
theorem V_main_v1_apply (c : Dev nD) (b : Fin 4) (s : Fin 512) (j : Fin 4096) (R : Fin 2304)
    (hR : R.val = b.val * 512 + s.val) :
    (V m c main_v1 : Vec F S2304x4096 .f32) (ix2 R j) = (m ((c : Thread nD τ).loc main_arg0) : Vec F S4x512x4096 .f32) (ix3 b s j) := by
  rw [V_main_v1]
  have hb := b.isLt
  have hs := s.isLt
  refine (pad_apply_of_inside _ _ _ _ _ pads_S2048x4096_S2304x4096_02560_000 h_S_ (ix2 R j)
    (ix2 (⟨R.val, by omega⟩ : Fin 2048) j) (fun a => ?_)).trans ?_
  · match a with
    | ⟨0, _⟩ => show R.val = 0 + R.val * (0 + 1); omega
    | ⟨1, _⟩ => show j.val = 0 + j.val * (0 + 1); omega
  · exact Cert.LibRowsReshape.merge_apply _ shapeCasts_S4x512x4096_S2048x4096 b s j _ hR

end Cert.ReferenceIdeal.RefValue

end
-- ==== Proof.RefInvariant.lean ====
/-
  What the two carried scratch buffers and the output block hold after every grid point, by induction on the point.

  Point n works on token tile n / 43 and hidden block n % 43. After it, row r of the first scratch is the normalised
  form of row 384·(n / 43) + r of the token array, and row r of the second scratch is the first n % 43 + 1 block terms
  of that row accumulated from zero. A tile's first point stores both afresh (so nothing is assumed of the tile
  before); every later point of the tile keeps the first and adds one term to the second. At the tile's last point the
  output block's row r is the result row of that token row.
-/
import proofs.«103741_g2000106300617579_pallasbulk_765_8_alg».proof.Proof.RefPieces
import proofs.«103741_g2000106300617579_pallasbulk_765_8_alg».proof.Proof.RefStep
import proofs.«103741_g2000106300617579_pallasbulk_765_8_alg».proof.Proof.RefBlocks

set_option maxRecDepth 16384

noncomputable section

namespace Cert.ReferenceIdeal.RefValue

open Idealize.ShloMosaic Idealize.ShloMosaic.TcCoe Idealize.SL.Sem
open Idealize.ShloMosaic.ValueIdx
open Cert.ReferenceIdeal Cert.ReferenceIdeal.Gen Cert.Ffn

variable (m : (ℓ : Loc nD τ sig) → Buf (Elt Ideal) ℓ)

/-- Row R of the padded token array as the region finds it. -/
def hrow (c : Dev nD) (R : Fin 2304) : Fin 4096 → EReal := fun q => (V m c main_v1 : Vec Ideal S2304x4096 .f32) (ix2 R q)
/-- The first weight row. -/
def fnw (c : Dev nD) : Fin 4096 → EReal := fun q => (V m c main_arg1 : Vec Ideal S1x4096 .f32) (ix2 (0 : Fin 1) q)
/-- The second weight row. -/
def anw (c : Dev nD) : Fin 4096 → EReal := fun q => (V m c main_arg4 : Vec Ideal S1x4096 .f32) (ix2 (0 : Fin 1) q)
/-- The gate/up weights. -/
def w13 (c : Dev nD) : Fin 4096 → Fin 22016 → EReal := fun a q => (V m c main_arg2 : Vec Ideal S4096x22016 .bf16) (ix2 a q)
/-- The down weights. -/
def w2 (c : Dev nD) : Fin 11008 → Fin 4096 → EReal := fun p j => (V m c main_arg3 : Vec Ideal S11008x4096 .bf16) (ix2 p j)

/-- The state after point n: the two scratch buffers row by row, and at a tile's last point the output block. -/
structure Inv (c : Dev nD) (n : ℕ) (hn : n < cfg0.N) : Prop where
  x : ∀ (r : Fin 384) (q : Fin 4096) (R : Fin 2304), R.val = n / 43 * 384 + r.val →
    (outsAt0 m c n hn).2.1 (ix2 r q) = normRow (hrow m c R) (fnw m c) q
  acc : ∀ (r : Fin 384) (q : Fin 4096) (R : Fin 2304), R.val = n / 43 * 384 + r.val →
    (outsAt0 m c n hn).2.2 (ix2 r q)
      = accFrom (fun _ => 0) (term (w13 m c) (w2 m c) (normRow (hrow m c R) (fnw m c))) (n % 43 + 1) q
  out : n % 43 = 42 → ∀ (r : Fin 384) (q : Fin 4096) (R : Fin 2304), R.val = n / 43 * 384 + r.val →
    (outsAt0 m c n hn).1 (ix2 r q) = outRowRef (hrow m c R) (fnw m c) (w13 m c) (w2 m c) (anw m c) q

/-- The token block's row r at point t is row 384·(t / 43) + r of the token array. -/
theorem blk_h (c : Dev nD) (t : Fin cfg0.N) (r : Fin 384) (R : Fin 2304) (hR : R.val = t.val / 43 * 384 + r.val) (q : Fin 4096) :
    (iblk m c 0 t : Vec Ideal S384x4096 .f32) (ix2 r q) = hrow m c R q := iblk0_apply m c t r q R hR
theorem blk_fnw (c : Dev nD) (t : Fin cfg0.N) (q : Fin 4096) :
    (iblk m c 1 t : Vec Ideal S1x4096 .f32) (ix2 (0 : Fin 1) q) = fnw m c q := iblk1_apply m c t q
theorem blk_anw (c : Dev nD) (t : Fin cfg0.N) (q : Fin 4096) :
    (iblk m c 4 t : Vec Ideal S1x4096 .f32) (ix2 (0 : Fin 1) q) = anw m c q := iblk4_apply m c t q
theorem blk_w13 (c : Dev nD) (t : Fin cfg0.N) (k : ℕ) (hk : t.val % 43 = k) (hk43 : k < 43) (a : Fin 4096) (q : Fin 512) :
    (iblk m c 2 t : Vec Ideal S4096x512 .bf16) (ix2 a q) = w13 m c a ⟨k * 512 + q.val, by have := q.isLt; omega⟩ :=
  iblk2_apply m c t a q _ (by rw [hk])
theorem blk_w2 (c : Dev nD) (t : Fin cfg0.N) (k : ℕ) (hk : t.val % 43 = k) (hk43 : k < 43) (p : Fin 256) (j : Fin 4096) :
    (iblk m c 3 t : Vec Ideal S256x4096 .bf16) (ix2 p j) = w2 m c ⟨k * 256 + p.val, by have := p.isLt; omega⟩ j :=
  iblk3_apply m c t p j _ (by rw [hk])

/-- A tile's first point. -/
theorem inv_A (c : Dev nD) (t : Fin cfg0.N) (h0 : t.val % 43 = 0) : Inv m c t.val t.isLt := by
  have h1 : ¬t.val % 43 = 42 := by omega
  have hx : ∀ (r : Fin 384) (q : Fin 4096) (R : Fin 2304), R.val = t.val / 43 * 384 + r.val →
      k0_pay1 (F := Ideal) (iblk m c 0 t) (iblk m c 1 t) (ix2 r q) = normRow (hrow m c R) (fnw m c) q := fun r q R hR =>
    pay1_row (iblk m c 0 t) (iblk m c 1 t) (hrow m c R) (fnw m c) r (blk_h m c t r R hR) (blk_fnw m c t) q
  refine ⟨fun r q R hR => ?_, fun r q R hR => ?_, fun h => absurd h h1⟩
  · rw [outsAt0_A m c t h0 h1]
    dsimp only
    refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r q)).trans ?_
    exact hx r q R hR
  · rw [outsAt0_A m c t h0 h1]
    dsimp only
    refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r q)).trans ?_
    rw [h0]
    exact pay3_step (k0_pay1 (F := Ideal) (iblk m c 0 t) (iblk m c 1 t)) (iblk m c 2 t) (k0_pay2 (F := Ideal)) (iblk m c 3 t)
      (w13 m c) (w2 m c) (normRow (hrow m c R) (fnw m c)) 0 (by omega) r (fun q' => hx r q' R hR)
      (fun q' => pay2_apply (ix2 r q')) (blk_w13 m c t 0 h0 (by omega)) (blk_w2 m c t 0 h0 (by omega)) q

/-- A later point of a tile, the scratch buffers: the first kept, one term added to the second. -/
theorem inv_step (c : Dev nD) (t : Fin cfg0.N) (h0 : ¬t.val % 43 = 0)
    (ih : Inv m c (t.val - 1) (Nat.lt_of_le_of_lt (Nat.sub_le _ _) t.isLt))
    (r : Fin 384) (q : Fin 4096) (R : Fin 2304) (hR : R.val = t.val / 43 * 384 + r.val) :
    k0_pay3 (F := Ideal) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2 (iblk m c 3 t) (ix2 r q)
      = accFrom (fun _ => 0) (term (w13 m c) (w2 m c) (normRow (hrow m c R) (fnw m c))) (t.val % 43 + 1) q := by
  have hN : t.val < 258 := lt_of_lt_of_eq t.isLt N_0
  have hR' : R.val = (t.val - 1) / 43 * 384 + r.val := by omega
  have hk : (t.val - 1) % 43 + 1 = t.val % 43 := by omega
  have hacc := fun q' => ih.acc r q' R hR'
  rw [hk] at hacc
  exact pay3_step _ (iblk m c 2 t) _ (iblk m c 3 t) (w13 m c) (w2 m c) (normRow (hrow m c R) (fnw m c)) (t.val % 43)
    (Nat.mod_lt _ (by omega)) r (fun q' => ih.x r q' R hR') hacc
    (blk_w13 m c t _ rfl (Nat.mod_lt _ (by omega))) (blk_w2 m c t _ rfl (Nat.mod_lt _ (by omega))) q

/-- A middle point of a tile. -/
theorem inv_B (c : Dev nD) (t : Fin cfg0.N) (h0 : ¬t.val % 43 = 0) (h1 : ¬t.val % 43 = 42)
    (ih : Inv m c (t.val - 1) (Nat.lt_of_le_of_lt (Nat.sub_le _ _) t.isLt)) : Inv m c t.val t.isLt := by
  have hN : t.val < 258 := lt_of_lt_of_eq t.isLt N_0
  refine ⟨fun r q R hR => ?_, fun r q R hR => ?_, fun h => absurd h h1⟩
  · rw [outsAt0_B m c t h0 h1]
    dsimp only
    show (outsAt0 m c (t.val - 1) (Nat.lt_of_le_of_lt (Nat.sub_le _ _) t.isLt)).2.1 (ix2 r q) = _
    exact ih.x r q R (by omega)
  · rw [outsAt0_B m c t h0 h1]
    dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
    exact inv_step m c t h0 ih r q R hR

/-- A tile's last point. -/
theorem inv_C (c : Dev nD) (t : Fin cfg0.N) (h0 : ¬t.val % 43 = 0) (h1 : t.val % 43 = 42)
    (ih : Inv m c (t.val - 1) (Nat.lt_of_le_of_lt (Nat.sub_le _ _) t.isLt)) : Inv m c t.val t.isLt := by
  have hN : t.val < 258 := lt_of_lt_of_eq t.isLt N_0
  refine ⟨fun r q R hR => ?_, fun r q R hR => ?_, fun _ r q R hR => ?_⟩
  · rw [outsAt0_C m c t h0 h1]
    dsimp only
    show (outsAt0 m c (t.val - 1) (Nat.lt_of_le_of_lt (Nat.sub_le _ _) t.isLt)).2.1 (ix2 r q) = _
    exact ih.x r q R (by omega)
  · rw [outsAt0_C m c t h0 h1]
    dsimp only
    refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
    exact inv_step m c t h0 ih r q R hR
  · rw [outsAt0_C m c t h0 h1]
    dsimp only
    refine (congrFun (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
    have hstep := fun q' => inv_step m c t h0 ih r q' R hR
    rw [h1] at hstep
    exact pay4_row (iblk m c 0 t) _ (iblk m c 4 t) (hrow m c R) (fnw m c) (anw m c) (w13 m c) (w2 m c) r
      (blk_h m c t r R hR) hstep (blk_anw m c t) q

/-- The state after every point. -/
theorem inv (c : Dev nD) : ∀ (n : ℕ) (hn : n < cfg0.N), Inv m c n hn
  | 0, hn => inv_A m c ⟨0, hn⟩ (Nat.zero_mod _)
  | n + 1, hn => by
    have ih := inv c n (Nat.lt_of_succ_lt hn)
    by_cases h0 : (n + 1) % 43 = 0
    · exact inv_A m c ⟨n + 1, hn⟩ h0
    · by_cases h1 : (n + 1) % 43 = 42
      · exact inv_C m c ⟨n + 1, hn⟩ h0 h1 ih
      · exact inv_B m c ⟨n + 1, hn⟩ h0 h1 ih

end Cert.ReferenceIdeal.RefValue

end
-- ==== Proof.RefFinal.lean ====
/-
  The reference program's value: its result array is the result rows of the argument's token rows.

  The output array after the region is, row by row, the result row of the padded token array's row: the six tiles'
  last points write back rows 384·i … 384·i + 383, which cover the 2304 rows. The lines after the region keep rows
  0 … 2047 and reshape them to (4, 512, 4096): entry (b, s, j) of the result is entry j of the output array's row
  512·b + s, and that row of the padded token array is row (b, s) of the argument.
-/
import proofs.«103741_g2000106300617579_pallasbulk_765_8_alg».proof.Proof.RefInvariant
import Idealize.ShloMosaic.Lib.ValueLayout

set_option maxRecDepth 16384

noncomputable section

namespace Cert.ReferenceIdeal.RefValue

open Idealize.ShloMosaic Idealize.ShloMosaic.TcCoe Idealize.ShloMosaic.Tactic Idealize.SL.Sem
open Idealize.ShloMosaic.ValueIdx
open Idealize.ShloMosaic.Pipeline (Dat)
open Cert.ReferenceIdeal Cert.ReferenceIdeal.Gen Cert.Ffn

variable (m : (ℓ : Loc nD τ sig) → Buf (Elt Ideal) ℓ) (ρ : Dev nD → PrngReg)

/-- The output array after the region: row R is the result row of row R of the padded token array. -/
def G (c : Dev nD) : Vec Ideal S2304x4096 .f32 := fun i =>
  outRowRef (hrow m c ⟨(i 0).val, idx2_lt0 i⟩) (fnw m c) (w13 m c) (w2 m c) (anw m c) ⟨(i 1).val, idx2_lt1 i⟩

/-- What a tile's last point writes back is its block of that array. -/
theorem flushed_eq (c : Dev nD) (t : Fin cfg0.N) (hf : (cfg0.win 5).flush t = true) :
    (dats m 0 c).flushed 5 t = ((cfg0.win 5).blk t).view.read (Elt Ideal) (G m c) := by
  have h1 : t.val % 43 = 42 := (flush0_5 t).mp hf
  show (cfg0.win 5).cut (grid0.coords t) ((dats m 0 c).after 5 t) = _
  rw [after0_5]
  funext y
  obtain ⟨r, q, rfl⟩ : ∃ (r : Fin 384) (q : Fin 4096), y = ix2 r q := ⟨y 0, y 1, eq_ix2 (n0 := 384) (n1 := 4096) y⟩
  rw [View.read_apply]
  show (outsAt0 m c t.val t.isLt).1 (ix2 r q) = G m c (((cfg0.win 5).blk t).view.emb (ix2 r q))
  obtain ⟨-, -, -, -, -, -, -, -, -, -, e0, e1⟩ := idx_facts t
  have hr : ((((cfg0.win 5).blk t).view.emb (ix2 r q)) 0).val = t.val / 43 * 384 + r.val := by
    show win0_5.index t (0 : Fin 2) * 384 + 1 * r.val = _
    rw [e0]; omega
  have hq : ((((cfg0.win 5).blk t).view.emb (ix2 r q)) 1).val = q.val := by
    show win0_5.index t (1 : Fin 2) * 4096 + 1 * q.val = _
    rw [e1]; omega
  rw [(inv m c t.val t.isLt).out h1 r q
    ⟨_, idx2_lt0 (n0 := 2304) (n1 := 4096) (((cfg0.win 5).blk t).view.emb (ix2 r q))⟩ hr]
  exact congrArg (outRowRef _ _ _ _ _) (Fin.ext hq.symm)

/-- An index of the output array is in point t's block iff each coordinate is in the block's range. -/
theorem mem_blk (t : Fin cfg0.N) (i : S2304x4096.Idx) :
    i ∈ ((cfg0.win 5).blk t).view.set ↔ ∀ a : Fin 2, win0_5.index t a * S384x4096.size a ≤ (i a).val
      ∧ (i a).val < win0_5.index t a * S384x4096.size a + S384x4096.size a := by
  show i ∈ ((View.whole main_v2).slice (win0_5.rect t)).set ↔ _
  rw [View.set_slice_whole, Rect.mem_set_unit]
  exact Iff.rfl

/-- Every row lies in the block some tile's last point writes back: row R in tile R / 384. -/
theorem cover (i : S2304x4096.Idx) :
    ∃ t : Fin cfg0.N, (cfg0.win 5).flush t = true ∧ i ∈ ((cfg0.win 5).blk t).view.set := by
  have hi0 : (i 0).val < 2304 := idx2_lt0 i
  have hi1 : (i 1).val < 4096 := idx2_lt1 i
  have hN : cfg0.N = 258 := N_0
  have ht : ∃ t : Fin cfg0.N, t.val = 43 * ((i 0).val / 384) + 42 :=
    ⟨⟨43 * ((i 0).val / 384) + 42, lt_of_lt_of_eq (by omega : _ < 258) hN.symm⟩, rfl⟩
  obtain ⟨t, ht⟩ := ht
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 384 ≤ (i 0).val ∧ (i 0).val < win0_5.index t (0 : Fin 2) * 384 + 384
    rw [e0]; omega
  | ⟨1, _⟩ =>
    show win0_5.index t (1 : Fin 2) * 4096 ≤ (i 1).val ∧ (i 1).val < win0_5.index t (1 : Fin 2) * 4096 + 4096
    rw [e1]; omega

/-- So the output array ends holding it. -/
theorem final (c : Dev nD) : (dats m 0 c).arrAt 5 cfg0.N = G m c :=
  (dats m 0 c).arrAt_eq_of_cover 5 (G m c) (fun t hf => flushed_eq m c t hf) cover

/-- The lines after the region: the first 2048 rows, reshaped. -/
theorem tail_eq (c : Dev nD) :
    Pipeline.afterTail₀ cfgs (dats m) 0 (V0 m) [hostOps1] c main_v4
      = shapeCast S4x512x4096 (extractStridedSlice S2048x4096 ![0, 0] (G m c) slices_S2304x4096_S2048x4096_0_0)
          shapeCasts_S2048x4096_S4x512x4096 := by
  unfold Pipeline.afterTail₀
  show StableHlo.after hostOps1 _ (Proc.devRef .tc main_v4) = _
  after_results
  refine Eq.trans (b := shapeCast S4x512x4096 (extractStridedSlice S2048x4096 ![0, 0]
    (Pipeline.withArrays spec0 c (V0 m c) (fun w => (dats m 0 c).arrAt w cfg0.N) (Proc.devRef .tc main_v2))
    slices_S2304x4096_S2048x4096_0_0) shapeCasts_S2048x4096_S4x512x4096) rfl ?_
  exact congrArg (fun X : Vec Ideal S2304x4096 .f32 => shapeCast S4x512x4096
      (extractStridedSlice S2048x4096 ![0, 0] X slices_S2304x4096_S2048x4096_0_0) shapeCasts_S2048x4096_S4x512x4096)
    ((Pipeline.withArrays_arr spec0 launch0.win.arr_inj c (V0 m c) (fun w => (dats m 0 c).arrAt w cfg0.N) 5).trans (final m c))

/-- The region-entry arrays are the launch contents. -/
theorem fnw_eq (c : Dev nD) : fnw m c = fun q => (m ((c.tc : Thread nD τ).loc main_arg1) : Vec Ideal S1x4096 .f32) (ix2 (0 : Fin 1) q) := by
  unfold fnw; rw [V_main_arg1]
theorem anw_eq (c : Dev nD) : anw m c = fun q => (m ((c.tc : Thread nD τ).loc main_arg4) : Vec Ideal S1x4096 .f32) (ix2 (0 : Fin 1) q) := by
  unfold anw; rw [V_main_arg4]
theorem w13_eq (c : Dev nD) : w13 m c = fun a q => (m ((c.tc : Thread nD τ).loc main_arg2) : Vec Ideal S4096x22016 .bf16) (ix2 a q) := by
  unfold w13; rw [V_main_arg2]
theorem w2_eq (c : Dev nD) : w2 m c = fun p j => (m ((c.tc : Thread nD τ).loc main_arg3) : Vec Ideal S11008x4096 .bf16) (ix2 p j) := by
  unfold w2; rw [V_main_arg3]

/-- The result array, entry by entry. -/
theorem result_eq (c : Dev nD) :
    Pipeline.afterTail₀ cfgs (dats m) 0 (V0 m) [hostOps1] c main_v4
      = resultRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq]
  funext i
  obtain ⟨b, s, j, rfl⟩ : ∃ (b : Fin 4) (s : Fin 512) (j : Fin 4096), i = ix3 b s j := ⟨i 0, i 1, i 2, eq_ix3 i⟩
  have hb := b.isLt
  have hs := s.isLt
  rw [Cert.LibRowsReshape.split_apply _ shapeCasts_S2048x4096_S4x512x4096 b s j (⟨b.val * 512 + s.val, by omega⟩ : Fin 2048) rfl,
    slice2_axis0_apply 0 (G m c) slices_S2304x4096_S2048x4096_0_0 (⟨b.val * 512 + s.val, by omega⟩ : Fin 2048) j
      (⟨b.val * 512 + s.val, by omega⟩ : Fin 2304) (by simp)]
  unfold G resultRef
  have hh : hrow m c ⟨b.val * 512 + s.val, by omega⟩ = fun q => (m ((c.tc : Thread nD τ).loc main_arg0) : Vec Ideal S4x512x4096 .f32) (ix3 b s q) :=
    funext fun q => V_main_v1_apply m c b s q _ rfl
  rw [fnw_eq, anw_eq, w13_eq, w2_eq]
  exact congrArg (fun hr => outRowRef hr _ _ _ _ j) hh

/-- The run: every weakly fair execution terminates with the result array at the specification's value and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = resultRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.ReferenceIdeal.RefValue

end
-- ==== Proof.lean ====
/-
  The certificate: a fused RMS-norm → gated feed-forward → residual → RMS-norm kernel against its reference.

  Both programs compute, for every token row `h`, the row `y · rsqrt(mean(y²) + ε) · anw` with
  `y = h + Σ_k (gated product of x · W13_k) · W2_k` over the 43 hidden blocks and `x = h · rsqrt(mean(h²) + ε) · fnw`
  (the specification module states this). They differ in tiling — 512-row tiles against 384-row tiles over a token
  array padded with rows that are cut off again — in when the down product of a block is taken (one grid step after
  its gated product, against the same step), and in how `y` is bracketed: the kernel adds the blocks' contributions
  onto `h` one after the other, the reference adds them onto zero and adds `h` at the end. Rows are computed
  independently, so the tiling does not matter, and addition on the extended reals is associative with unit zero, so
  the bracketing does not either; no finiteness of the inputs is used.

  The three frames: each kernel body is run symbolically in its three cases (first, middle, last step of a tile) and
  the region's invariant carries the scratch buffers' contents from point to point; the reference's frame is the
  generated one. The idealization rewrote nothing, so there is nothing to preserve. For the algebraic claim each
  program's result array is read off its run as the specification's function of the argument arrays — the kernel's
  in the first bracketing, the reference's in the second — and the two are equal.
-/
import proofs.«103741_g2000106300617579_pallasbulk_765_8_alg».proof.Defs
import proofs.«103741_g2000106300617579_pallasbulk_765_8_alg».proof.Proof.BodyKernelFrame
import proofs.«103741_g2000106300617579_pallasbulk_765_8_alg».proof.Proof.KernArray
import proofs.«103741_g2000106300617579_pallasbulk_765_8_alg».proof.Proof.RefFinal
import proofs.«103741_g2000106300617579_pallasbulk_765_8_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the kernel read on the extended reals. -/
theorem frame_kernelIdeal : Cert.frame_KernelIdeal := fun m ρ _ => Cert.KernelIdeal.Body.frame m ρ

/-- And the reference. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the arguments both programs end at the specification's result: the kernel in the
    bracketing that accumulates onto the residual row, the reference in the one that adds it last. -/
theorem algebraic : Cert.algebraic_KernelIdeal_ReferenceIdeal := by
  intro m ρ m' ρ' _ hagree
  refine ⟨_, Cert.KernelIdeal.KernValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact Cert.Ffn.resultRef_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
